-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S8x1024x768 .f32) (main_arg1 : FVec F S2304x768 .f32) (main_arg2 : FVec F S2304 .f32) (main_arg3 : FVec F S768x768 .f32) (main_arg4 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S8x1024x768 : Shape := ⟨3, ![8, 1024, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S12x64x768 : Shape := ⟨3, ![12, 64, 768]⟩
abbrev S3x8x12x1024x64 : Shape := ⟨5, ![3, 8, 12, 1024, 64]⟩
abbrev S1x256x768 : Shape := ⟨3, ![1, 256, 768]⟩
abbrev S3x1x12x256x64 : Shape := ⟨5, ![3, 1, 12, 256, 64]⟩
abbrev S256x768 : Shape := ⟨2, ![256, 768]⟩
abbrev S256x2304 : Shape := ⟨2, ![256, 2304]⟩
abbrev S1x2304 : Shape := ⟨2, ![1, 2304]⟩
abbrev S256x3x12x64 : Shape := ⟨4, ![256, 3, 12, 64]⟩
abbrev S3x12x256x64 : Shape := ⟨4, ![3, 12, 256, 64]⟩
abbrev S3x1x1x1024x64 : Shape := ⟨5, ![3, 1, 1, 1024, 64]⟩
abbrev S1x64x768 : Shape := ⟨3, ![1, 64, 768]⟩
abbrev S1x1024x768 : Shape := ⟨3, ![1, 1024, 768]⟩
abbrev S1024x768 : Shape := ⟨2, ![1024, 768]⟩
abbrev S1x1x1x1024x64 : Shape := ⟨5, ![1, 1, 1, 1024, 64]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S64x768 : Shape := ⟨2, ![64, 768]⟩
abbrev S1x768 : Shape := ⟨2, ![1, 768]⟩

abbrev nBuf : Space → Nat
  | .hbm => 11
  | .vmem => 14
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S2304x768, .bf16⟩
  | .hbm, ⟨6, _⟩ => ⟨S768x768, .f32⟩
  | .hbm, ⟨7, _⟩ => ⟨S12x64x768, .f32⟩
  | .hbm, ⟨8, _⟩ => ⟨S12x64x768, .bf16⟩
  | .hbm, ⟨9, _⟩ => ⟨S3x8x12x1024x64, .bf16⟩
  | .hbm, ⟨10, _⟩ => ⟨S8x1024x768, .f32⟩
  | .local _ .vmem, ⟨0, _⟩ => ⟨S1x256x768, .f32⟩
  | .local _ .vmem, ⟨1, _⟩ => ⟨S1x256x768, .f32⟩
  | .local _ .vmem, ⟨2, _⟩ => ⟨S2304x768, .bf16⟩
  | .local _ .vmem, ⟨3, _⟩ => ⟨S2304, .f32⟩
  | .local _ .vmem, ⟨4, _⟩ => ⟨S3x1x12x256x64, .bf16⟩
  | .local _ .vmem, ⟨5, _⟩ => ⟨S3x1x12x256x64, .bf16⟩
  | .local _ .vmem, ⟨6, _⟩ => ⟨S3x1x1x1024x64, .bf16⟩
  | .local _ .vmem, ⟨7, _⟩ => ⟨S3x1x1x1024x64, .bf16⟩
  | .local _ .vmem, ⟨8, _⟩ => ⟨S1x64x768, .bf16⟩
  | .local _ .vmem, ⟨9, _⟩ => ⟨S1x64x768, .bf16⟩
  | .local _ .vmem, ⟨10, _⟩ => ⟨S768, .f32⟩
  | .local _ .vmem, ⟨11, _⟩ => ⟨S1x1024x768, .f32⟩
  | .local _ .vmem, ⟨12, _⟩ => ⟨S1x1024x768, .f32⟩
  | .local _ .vmem, ⟨13, _⟩ => ⟨S1024x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2304x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S3x1x12x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 12], ![false, false]⟩

def k1_cond2 (i : grid1.Coords) : BitVec 1 :=
  let arg1 : BitVec 32 := BitVec.ofNat 32 (i 1).val
  let c11_i32 : BitVec 32 := 11#32
  let v32 : BitVec 1 := Scalar.cmpi .eq arg1 c11_i32
  let v33 : BitVec 32 := Scalar.extui v32
  let c0_i32_25 : BitVec 32 := 0#32
  let v34 : BitVec 1 := Scalar.cmpi .ne v33 c0_i32_25
  v34

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S3x1x1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  transposes_S768x768_S768x768_1_0 : S768x768.Transposes [1, 0] S768x768
  shapeCasts_S768x768_S12x64x768 : S768x768.ShapeCasts S12x64x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S2304x768_S2304x768_0_0 : ∀ a, (![0, 0] : Fin 2 → Nat) a + S2304x768.size a ≤ S2304x768.size a
  h_S2304x768 : 0 < S2304x768.numel
  shapeCasts_S2304x768_S2304x768 : S2304x768.ShapeCasts S2304x768
  inb_S2304_S2304_0 : ∀ a, (![0] : Fin 1 → Nat) a + S2304.size a ≤ S2304.size a
  h_S2304 : 0 < S2304.numel
  shapeCasts_S2304_S1x2304 : S2304.ShapeCasts S1x2304
  broadcasts_S1x2304_S256x2304 : S1x2304.Broadcasts S256x2304
  shapeCasts_S256x2304_S256x3x12x64 : S256x2304.ShapeCasts S256x3x12x64
  transposes_S256x3x12x64_p1_2_0_3_S3x12x256x64 : S256x3x12x64.Transposes [1, 2, 0, 3] S3x12x256x64
  inb_S3x1x12x256x64_S3x1x12x256x64_0_0_0_0_0 : ∀ a, (![0, 0, 0, 0, 0] : Fin 5 → Nat) a + S3x1x12x256x64.size a ≤ S3x1x12x256x64.size a
  h_S3x1x12x256x64 : 0 < S3x1x12x256x64.numel
  shapeCasts_S3x1x12x256x64_S3x12x256x64 : S3x1x12x256x64.ShapeCasts S3x12x256x64
  shapeCasts_S3x12x256x64_S3x1x12x256x64 : S3x12x256x64.ShapeCasts S3x1x12x256x64
  packedbf16_S3x1x12x256x64_S3x1x12x256x64_0_0_0_0_0 : (Rect.unit (s := S3x1x12x256x64) ![0, 0, 0, 0, 0] S3x1x12x256x64.size inb_S3x1x12x256x64_S3x1x12x256x64_0_0_0_0_0).PackedRows (EltTy.packing .bf16)
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S3x1x1x1024x64_S1x1x1x1024x64_0_0_0_0_0 : ∀ a, (![0, 0, 0, 0, 0] : Fin 5 → Nat) a + S1x1x1x1024x64.size a ≤ S3x1x1x1024x64.size a
  h_S1x1x1x1024x64 : 0 < S1x1x1x1024x64.numel
  shapeCasts_S1x1x1x1024x64_S1024x64 : S1x1x1x1024x64.ShapeCasts S1024x64
  inb_S3x1x1x1024x64_S1x1x1x1024x64_1_0_0_0_0 : ∀ a, (![1, 0, 0, 0, 0] : Fin 5 → Nat) a + S1x1x1x1024x64.size a ≤ S3x1x1x1024x64.size a
  inb_S3x1x1x1024x64_S1x1x1x1024x64_2_0_0_0_0 : ∀ a, (![2, 0, 0, 0, 0] : Fin 5 → Nat) a + S1x1x1x1024x64.size a ≤ S3x1x1x1024x64.size a
  reduces_S1024x1024_S1024 : S1024x1024.Reduces [1] S1024
  shapeCasts_S1024_S1024x1 : S1024.ShapeCasts S1024x1
  broadcasts_S1024x1_S1024x1024 : S1024x1.Broadcasts S1024x1024
  inb_S1x64x768_S1x64x768_0_0_0 : ∀ a, (![0, 0, 0] : Fin 3 → Nat) a + S1x64x768.size a ≤ S1x64x768.size a
  h_S1x64x768 : 0 < S1x64x768.numel
  shapeCasts_S1x64x768_S64x768 : S1x64x768.ShapeCasts S64x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  shapeCasts_S1024x768_S1x1024x768 : S1024x768.ShapeCasts S1x1024x768
  dot_S256x768_S2304x768_S256x2304_1_1_0_0_n_n_wf : DotDims.WF S256x768 S2304x768 S256x2304 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S1024x64_S64x768_S1024x768_1_0_0_1_n_n_wf : DotDims.WF S1024x64 S64x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S8x1024x768.size a
  hwx0_0 : ∀ i : grid0.Coords, EltTy.bits .f32 = 32 ∨ (Rect.block (s := S8x1024x768) S1x256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .bf16 = 32 ∨ (Rect.block (s := S2304x768) S2304x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2304.size a ≤ S2304.size a
  hwx0_2 : ∀ i : grid0.Coords, EltTy.bits .f32 = 32 ∨ (Rect.block (s := S2304) S2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x1x12x256x64.size a ≤ S3x8x12x1024x64.size a
  hwx0_3 : ∀ i : grid0.Coords, EltTy.bits .bf16 = 32 ∨ (Rect.block (s := S3x8x12x1024x64) S3x1x12x256x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x1x1x1024x64.size a ≤ S3x8x12x1024x64.size a
  hwx1_0 : ∀ i : grid1.Coords, EltTy.bits .bf16 = 32 ∨ (Rect.block (s := S3x8x12x1024x64) S3x1x1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x768.size a ≤ S12x64x768.size a
  hwx1_1 : ∀ i : grid1.Coords, EltTy.bits .bf16 = 32 ∨ (Rect.block (s := S12x64x768) S1x64x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768.size a ≤ S768.size a
  hwx1_2 : ∀ i : grid1.Coords, EltTy.bits .f32 = 32 ∨ (Rect.block (s := S768) S768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x768.size a ≤ S8x1024x768.size a
  hwx1_3 : ∀ i : grid1.Coords, EltTy.bits .f32 = 32 ∨ (Rect.block (s := S8x1024x768) S1x1024x768.size (cc1_transform_3 i) (hinb1_3 i)).WholeWords (EltTy.packing .f32)

variable [Facts₀]

def dot_S256x768_S2304x768_S256x2304_1_1_0_0_n_n : DotDims S256x768 S2304x768 S256x2304 where
  lhsContracting := [1]
  rhsContracting := [1]
  lhsNonContracting := [0]
  rhsNonContracting := [0]
  lhsBatch := []
  rhsBatch := []
  wf := dot_S256x768_S2304x768_S256x2304_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x768_S1024x768_1_0_0_1_n_n : DotDims S1024x64 S64x768 S1024x768 where
  lhsContracting := [1]
  rhsContracting := [0]
  lhsNonContracting := [0]
  rhsNonContracting := [1]
  lhsBatch := []
  rhsBatch := []
  wf := dot_S1024x64_S64x768_S1024x768_1_0_0_1_n_n_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S3x1x12x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S3x1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x64x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x1024x768 : Shape := ⟨3, ![8, 1024, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S8x1024x2304 : Shape := ⟨3, ![8, 1024, 2304]⟩
abbrev S1x1x2304 : Shape := ⟨3, ![1, 1, 2304]⟩
abbrev S8x1024x3x12x64 : Shape := ⟨5, ![8, 1024, 3, 12, 64]⟩
abbrev S3x8x12x1024x64 : Shape := ⟨5, ![3, 8, 12, 1024, 64]⟩
abbrev S1x8x12x1024x64 : Shape := ⟨5, ![1, 8, 12, 1024, 64]⟩
abbrev S8x12x1024x64 : Shape := ⟨4, ![8, 12, 1024, 64]⟩
abbrev S8x12x1024x1024 : Shape := ⟨4, ![8, 12, 1024, 1024]⟩
abbrev S_ : Shape := ⟨0, ![]⟩
abbrev S8x12x1024 : Shape := ⟨3, ![8, 12, 1024]⟩
abbrev S8x12x1024x1 : Shape := ⟨4, ![8, 12, 1024, 1]⟩
abbrev S8x1024x12x64 : Shape := ⟨4, ![8, 1024, 12, 64]⟩
abbrev S1x1x768 : Shape := ⟨3, ![1, 1, 768]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S8x1024x2304, .f32⟩
  | .hbm, ⟨6, _⟩ => ⟨S1x1x2304, .f32⟩
  | .hbm, ⟨7, _⟩ => ⟨S8x1024x2304, .f32⟩
  | .hbm, ⟨8, _⟩ => ⟨S8x1024x2304, .f32⟩
  | .hbm, ⟨9, _⟩ => ⟨S8x1024x3x12x64, .f32⟩
  | .hbm, ⟨10, _⟩ => ⟨S3x8x12x1024x64, .f32⟩
  | .hbm, ⟨11, _⟩ => ⟨S1x8x12x1024x64, .f32⟩
  | .hbm, ⟨12, _⟩ => ⟨S8x12x1024x64, .f32⟩
  | .hbm, ⟨13, _⟩ => ⟨S1x8x12x1024x64, .f32⟩
  | .hbm, ⟨14, _⟩ => ⟨S8x12x1024x64, .f32⟩
  | .hbm, ⟨15, _⟩ => ⟨S1x8x12x1024x64, .f32⟩
  | .hbm, ⟨16, _⟩ => ⟨S8x12x1024x64, .f32⟩
  | .hbm, ⟨17, _⟩ => ⟨S8x12x1024x1024, .f32⟩
  | .hbm, ⟨18, _⟩ => ⟨S_, .f32⟩
  | .hbm, ⟨19, _⟩ => ⟨S8x12x1024x1024, .f32⟩
  | .hbm, ⟨20, _⟩ => ⟨S8x12x1024x1024, .f32⟩
  | .hbm, ⟨21, _⟩ => ⟨S_, .f32⟩
  | .hbm, ⟨22, _⟩ => ⟨S8x12x1024, .f32⟩
  | .hbm, ⟨23, _⟩ => ⟨S_, .f32⟩
  | .hbm, ⟨24, _⟩ => ⟨S8x12x1024, .f32⟩
  | .hbm, ⟨25, _⟩ => ⟨S8x12x1024, .f32⟩
  | .hbm, ⟨26, _⟩ => ⟨S8x12x1024x1, .f32⟩
  | .hbm, ⟨27, _⟩ => ⟨S8x12x1024x1024, .f32⟩
  | .hbm, ⟨28, _⟩ => ⟨S8x12x1024x1024, .f32⟩
  | .hbm, ⟨29, _⟩ => ⟨S8x12x1024x1024, .f32⟩
  | .hbm, ⟨30, _⟩ => ⟨S_, .f32⟩
  | .hbm, ⟨31, _⟩ => ⟨S8x12x1024, .f32⟩
  | .hbm, ⟨32, _⟩ => ⟨S8x12x1024x1, .f32⟩
  | .hbm, ⟨33, _⟩ => ⟨S8x12x1024x1024, .f32⟩
  | .hbm, ⟨34, _⟩ => ⟨S8x12x1024x1024, .f32⟩
  | .hbm, ⟨35, _⟩ => ⟨S8x12x1024x64, .f32⟩
  | .hbm, ⟨36, _⟩ => ⟨S8x1024x12x64, .f32⟩
  | .hbm, ⟨37, _⟩ => ⟨S8x1024x768, .f32⟩
  | .hbm, ⟨38, _⟩ => ⟨S8x1024x768, .f32⟩
  | .hbm, ⟨39, _⟩ => ⟨S1x1x768, .f32⟩
  | .hbm, ⟨40, _⟩ => ⟨S8x1024x768, .f32⟩
  | .hbm, ⟨41, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S8x1024x2304_0_1_2 : S1x1x2304.BroadcastsInDim S8x1024x2304 (![0, 1, 2] : Fin 3 → Fin S8x1024x2304.rank)
  shapeCasts_S8x1024x2304_S8x1024x3x12x64 : S8x1024x2304.ShapeCasts S8x1024x3x12x64
  transposes_S8x1024x3x12x64_S3x8x12x1024x64_2_0_3_1_4 : S8x1024x3x12x64.Transposes [2, 0, 3, 1, 4] S3x8x12x1024x64
  slices_S3x8x12x1024x64_S1x8x12x1024x64_0_0_0_0_0 : S3x8x12x1024x64.Slices ![0, 0, 0, 0, 0] S1x8x12x1024x64
  shapeCasts_S1x8x12x1024x64_S8x12x1024x64 : S1x8x12x1024x64.ShapeCasts S8x12x1024x64
  slices_S3x8x12x1024x64_S1x8x12x1024x64_1_0_0_0_0 : S3x8x12x1024x64.Slices ![1, 0, 0, 0, 0] S1x8x12x1024x64
  slices_S3x8x12x1024x64_S1x8x12x1024x64_2_0_0_0_0 : S3x8x12x1024x64.Slices ![2, 0, 0, 0, 0] S1x8x12x1024x64
  bcast_S_S8x12x1024x1024 : S_.BroadcastsInDim S8x12x1024x1024 (![] : Fin 0 → Fin S8x12x1024x1024.rank)
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x1024x768_S768x768_S8x1024x768_2_1_01_0_n_n_wf : DotDims.WF S8x1024x768 S768x768 S8x1024x768 [2] [1] [0, 1] [0] [] []

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf

class Facts : Prop extends Facts₀ where

variable [Facts]
-- ==== Proof.BitsR0.lean ====
/-
  Region 0 (the fused projection's call, a grid of 8 × 4 points), at the contents `V` its core's buffers hold when
  the region is entered, over any float model.

  Windows 0, 1, 2 are inputs (the activations' block, the weights, the bias) and window 3 is the output. At every
  point the body reads the three input buffers whole and overwrites the output buffer whole with one value, a
  function of the three (`out0_3`). So the proof data says: after the body each input buffer still holds its
  block and the output buffer holds `out0_3` of the three blocks; the invariant is the class's (nothing else is
  touched), nothing is owed, and every share is full. The body obligation follows from the body's triple.
-/
import proofs.«109183_j33913061769280_2_alg».proof.Proof.Gen.Kernel.Launch
import proofs.«109183_j33913061769280_2_alg».proof.Proof.Gen.Kernel.Skeleton
import proofs.«109183_j33913061769280_2_alg».proof.Proof.Gen.Kernel.Points
import Idealize.ShloMosaic.Lib.Pipeline.FrameBody
import Idealize.ShloMosaic.Lib.Ring
import Idealize.ShloMosaic.Lib.Tactic

-- membership in a rectangle of long extents recurses once per coordinate of the long axes
set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its index has not moved, and the window is neither cut nor ever idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): where the window is not
    fetched its index has not moved, and the window is neither cut nor ever idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): where the window is not
    fetched its index has not moved, and the window is neither cut nor ever idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1x256x768 := Rect.unit (s := S1x256x768) ![0, 0, 0] S1x256x768.size inb_S1x256x768_S1x256x768_0_0_0
abbrev r0_1 : Rect S2304x768 := Rect.unit (s := S2304x768) ![0, 0] S2304x768.size inb_S2304x768_S2304x768_0_0
abbrev r0_2 : Rect S2304 := Rect.unit (s := S2304) ![0] S2304.size inb_S2304_S2304_0
abbrev r0_3 : Rect S3x1x12x256x64 := Rect.unit (s := S3x1x12x256x64) ![0, 0, 0, 0, 0] S3x1x12x256x64.size inb_S3x1x12x256x64_S3x1x12x256x64_0_0_0_0_0

/-! ## What the body leaves in the output window's buffer -/

/-- Window 3's buffer after the body, from the input windows' blocks: its one store, of the whole buffer. -/
def out0_3 (x0 : Vec F S1x256x768 .f32) (x1 : Vec F S2304x768 .bf16) (x2 : Vec F S2304 .f32) : Vec F S3x1x12x256x64 .bf16 :=
  View.canon [⟨r0_3, k0_pay1 (View.ld x0 r0_0) (View.ld x1 r0_1) (View.ld x2 r0_2)⟩]

/-- The store's rectangle is the whole buffer, so it covers it. -/
theorem cover0_3 (p0 : Vec F S3x1x12x256x64 .bf16) (y : S3x1x12x256x64.Idx) :
    ∃ pc ∈ ([⟨r0_3, p0⟩] : List (View.Piece (Elt F) S3x1x12x256x64 .bf16)), y ∈ pc.1.set :=
  View.cover_of_tiled [⟨r0_3, p0⟩] S3x1x12x256x64.size (by rfl) y

/-! ## The body's triple -/

set_option maxHeartbeats 1000000 in
/-- The body on whole buffers, the inputs' at contents `x0 x1 x2` and the output's at anything, runs to the
    continuation holding the inputs' as they were and the output's at `out0_3 x0 x1 x2`. -/
theorem sound_kernel0 (c : Dev nD) (E : Set ℕ) (i : grid0.Coords) (arg2 : Memref sig .tc .vmem S1x256x768 .f32) (harg2 : arg2.IsWhole) (arg3 : Memref sig .tc .vmem S2304x768 .bf16) (harg3 : arg3.IsWhole) (arg4 : Memref sig .tc .vmem S2304 .f32) (harg4 : arg4.IsWhole) (arg5 : Memref sig .tc .vmem S3x1x12x256x64 .bf16) (harg5 : arg5.IsWhole)
    (x0 : Vec F S1x256x768 .f32) (x1 : Vec F S2304x768 .bf16) (x2 : Vec F S2304 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__qkv_kernel i arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.BitsR1Runs.lean ====
/-
  Region 1 (the attention and output-projection kernel, grid 8 × 12): what the three runs of its body share.
  The windows' blocks read off the arrays as the region finds them; the two branch conditions of the body in
  closed form over the grid (the head coordinate h = t mod 12 is 0, resp. 11); where output window 3 is idle;
  the staging and scratch memrefs; and the region invariant with the scratch as an owned memref.
-/
import proofs.«109183_j33913061769280_2_alg».proof.Proof.Gen.Kernel.Launch
import proofs.«109183_j33913061769280_2_alg».proof.Proof.Gen.Kernel.Skeleton
import proofs.«109183_j33913061769280_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle over the long axes (a thousand coordinates each) is unfolded coordinate by coordinate:
-- deep recursion
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2 (fetched at the first point only: its block index never moves). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the reset of the scratch), from the grid coordinates: the
    head coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 12) — decided over the grid. -/
theorem hcond1_0 : ∀ t : Fin cfg1.N, cond1_0 (grid1.coords t) ↔ t.val % 12 = 0 :=
  (by decide +kernel : ∀ t : Fin grid1.N, cond1_0 (grid1.coords t) ↔ t.val % 12 = 0)

/-- The condition of the body's second conditional (the store of the result), from the grid coordinates: the
    head coordinate is 11. -/
abbrev cond1_1 (i : grid1.Coords) : Prop := k1_cond2 i = 1#1
/-- It holds at the points ≡ 11 (mod 12) — decided over the grid. -/
theorem hcond1_1 : ∀ t : Fin cfg1.N, cond1_1 (grid1.coords t) ↔ t.val % 12 = 11 :=
  (by decide +kernel : ∀ t : Fin grid1.N, cond1_1 (grid1.coords t) ↔ t.val % 12 = 11)

/-! ## Where the windows are idle -/

/-- Windows 0, 1, 2 are never idle (inputs). -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A output 3 is idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B output 3 is idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C output 3 is live: the case stores into it. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of output window 3, through which its contents are stated (the choice does not matter). -/
abbrev VO1_3 : View sig .tc .vmem S1x1024x768 .f32 := (Memref.whole cc1_stg3_0 : Memref sig .tc .vmem S1x1024x768 .f32).view
/-- Each window's current staging memref at point `t`, spelled as the pipeline passes it, and its wholeness. -/
abbrev ms1_0 (t : Fin cfg1.N) : Memref sig .tc .vmem S3x1x1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x768 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S1024x768 .f32 := Memref.whole cc1_scratch0
/-- The scratch the kernel carries between points, as a view: what it holds is stated through it. -/
abbrev VS1_0 : View sig .tc .vmem S1024x768 .f32 := scM1_0.view

/-- The other call's staging buffers, each whole at some contents: scoped buffers this kernel does not touch. -/
def rest1 (c : Dev nD) : sProp 𝕄 :=
  bigSepL [cc0_stg0_0, cc0_stg0_1, cc0_stg1_0, cc0_stg2_0, cc0_stg3_0, cc0_stg3_1]
    fun b => iprop(∃ f : Buf (Elt F) ((c : Thread nD τ).loc b), ((c : Thread nD τ).loc b) ↦{fullShare} f)

/-- The region's invariant with the scratch operand as a memref owned at some contents, the core's other scoped
    buffers beside it: what the body obligation hands the run and takes back. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA
  rw [Pipeline.scopedRest_eq_of_list spec1 c [cc1_scratch0, cc0_stg0_0, cc0_stg0_1, cc0_stg1_0, cc0_stg2_0, cc0_stg3_0, cc0_stg3_1] (by decide) (by decide)]
  simp only [scM1_0, owns_whole]; try rfl

end Cert.Kernel.R1

end
-- ==== Proof.BitsR1RunA.lean ====
/-
  Region 1, case A (head coordinate 0: the scratch is reset, the result is not stored): the run of the whole body.
  On whole staging memrefs — the inputs' at their contents, output 3's at contents handed back untouched, the scratch
  at anything — the body runs to the continuation holding the inputs' as they were and the scratch with its pieces
  written. The pieces are the witness the run finds.
-/
import proofs.«109183_j33913061769280_2_alg».proof.Proof.BitsR1Runs

-- membership in a rectangle over the long axes (a thousand coordinates each) is unfolded coordinate by coordinate:
-- deep recursion
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the body's triple below is a large term)
set_option maxHeartbeats 1000000 in
/-- What the body's stores leave in output 3's staging memref and in the scratch, as pieces (last first), in case A,
    with the proof of the body's triple. -/
noncomputable def kernelRun1_A (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : cond1_0 i) (hc1 : ¬cond1_1 i)
    (x0 : Vec F S3x1x1x1024x64 .bf16) (x1 : Vec F S1x64x768 .bf16) (x2 : Vec F S768 .f32) :
    Σ' (L3 : List (View.Piece (Elt F) S1x1024x768 .f32)), { LS0 : List (View.Piece (Elt F) S1024x768 .f32) //
      ∀ (xi3 : Vec F S1x1024x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_proj_kernel i arg2 harg2 arg3 harg3 arg4 harg4 arg5 harg5 arg6 harg6) K } := by
  refine ⟨[], ?_, fun xi3 E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.R1

end
-- ==== Proof.BitsR1RunB.lean ====
/-
  Region 1, case B (head coordinate strictly between 0 and 11: neither conditional is taken): the run of the whole body.
  On whole staging memrefs — the inputs' at their contents, output 3's at contents handed back untouched, the scratch
  at what the point before left — the body runs to the continuation holding the inputs' as they were and the scratch
  with its pieces written. The pieces are the witness the run finds.
-/
import proofs.«109183_j33913061769280_2_alg».proof.Proof.BitsR1RunA

-- membership in a rectangle over the long axes (a thousand coordinates each) is unfolded coordinate by coordinate:
-- deep recursion
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the body's triple below is a large term)
set_option maxHeartbeats 1000000 in
/-- What the body's stores leave in output 3's staging memref and in the scratch, as pieces (last first), in case B,
    with the proof of the body's triple. -/
noncomputable def kernelRun1_B (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : ¬cond1_1 i)
    (x0 : Vec F S3x1x1x1024x64 .bf16) (x1 : Vec F S1x64x768 .bf16) (x2 : Vec F S768 .f32) (xs0 : Vec F S1024x768 .f32) :
    Σ' (L3 : List (View.Piece (Elt F) S1x1024x768 .f32)), { LS0 : List (View.Piece (Elt F) S1024x768 .f32) //
      ∀ (xi3 : Vec F S1x1024x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_proj_kernel i arg2 harg2 arg3 harg3 arg4 harg4 arg5 harg5 arg6 harg6) K } := by
  refine ⟨[], ?_, fun xi3 E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.R1

end
-- ==== Proof.BitsR1RunC.lean ====
/-
  Region 1, case C (head coordinate 11: the scratch is not reset, the result is stored): the run of the whole body.
  On whole staging memrefs — the inputs' at their contents, output 3's at anything, the scratch at what the point
  before left — the body runs to the continuation holding the inputs' as they were, output 3's buffer and the scratch
  each with its pieces written. The pieces are the witness the run finds.
-/
import proofs.«109183_j33913061769280_2_alg».proof.Proof.BitsR1RunB

-- membership in a rectangle over the long axes (a thousand coordinates each) is unfolded coordinate by coordinate:
-- deep recursion
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the body's triple below is a large term)
set_option maxHeartbeats 1000000 in
/-- What the body's stores leave in output 3's staging memref and in the scratch, as pieces (last first), in case C,
    with the proof of the body's triple. -/
noncomputable def kernelRun1_C (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : cond1_1 i)
    (x0 : Vec F S3x1x1x1024x64 .bf16) (x1 : Vec F S1x64x768 .bf16) (x2 : Vec F S768 .f32) (xs0 : Vec F S1024x768 .f32) :
    Σ' (L3 : List (View.Piece (Elt F) S1x1024x768 .f32)), { LS0 : List (View.Piece (Elt F) S1024x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__attn_proj_kernel i arg2 harg2 arg3 harg3 arg4 harg4 arg5 harg5 arg6 harg6) K } := by
  refine ⟨?_, ?_, fun E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.R1

end
-- ==== Proof.BitsR1.lean ====
/-
  Region 1 (the attention and output-projection kernel, grid 8 × 12): the frame half. What output window 3 and the
  f32 scratch hold per case of the body's two conditionals (covers, contents as pieces read back) and point by point
  (`outsAt1`: the scratch is carried from point to point; the output is stored only where the head coordinate is 11
  and is idle, not written back, elsewhere), the proof data `dat1` over any contents `V` of the arrays at the region's
  entry, and the body obligation with the invariant's two ends.
-/
import proofs.«109183_j33913061769280_2_alg».proof.Proof.BitsR1RunC

-- membership in a rectangle over the long axes (a thousand coordinates each) is unfolded coordinate by coordinate:
-- deep recursion
set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 3 (the window is idle at its points and not written back there): no pieces —
    a placeholder (junk read back) that nothing consults. -/
def out1_A_3 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : cond1_0 i) (hc1 : ¬cond1_1 i)
    (x0 : Vec F S3x1x1x1024x64 .bf16) (x1 : Vec F S1x64x768 .bf16) (x2 : Vec F S768 .f32) : Vec F S1x1024x768 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the scratch, which the kernel carries between points, cover it. -/
theorem scover1_A_0 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : cond1_0 i) (hc1 : ¬cond1_1 i)
    (x0 : Vec F S3x1x1x1024x64 .bf16) (x1 : Vec F S1x64x768 .bf16) (x2 : Vec F S768 .f32) (y : S1024x768.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x768.size (by sl_kernel_rfl) y

/-- What case A leaves in the scratch: its pieces read back over junk. -/
def sout1_A_0 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : cond1_0 i) (hc1 : ¬cond1_1 i)
    (x0 : Vec F S3x1x1x1024x64 .bf16) (x1 : Vec F S1x64x768 .bf16) (x2 : Vec F S768 .f32) : Vec F S1024x768 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into output 3 (the window is idle at its points and not written back there): no pieces —
    a placeholder (junk read back) that nothing consults. -/
def out1_B_3 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : ¬cond1_1 i)
    (x0 : Vec F S3x1x1x1024x64 .bf16) (x1 : Vec F S1x64x768 .bf16) (x2 : Vec F S768 .f32) (xs0 : Vec F S1024x768 .f32) : Vec F S1x1024x768 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the scratch, which the kernel carries between points, cover it. -/
theorem scover1_B_0 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : ¬cond1_1 i)
    (x0 : Vec F S3x1x1x1024x64 .bf16) (x1 : Vec F S1x64x768 .bf16) (x2 : Vec F S768 .f32) (xs0 : Vec F S1024x768 .f32) (y : S1024x768.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x768.size (by sl_kernel_rfl) y

/-- What case B leaves in the scratch: its pieces read back over junk. -/
def sout1_B_0 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : ¬cond1_1 i)
    (x0 : Vec F S3x1x1x1024x64 .bf16) (x1 : Vec F S1x64x768 .bf16) (x2 : Vec F S768 .f32) (xs0 : Vec F S1024x768 .f32) : Vec F S1024x768 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's pieces for output 3 tile its block (one store of the whole block), so they cover it. -/
theorem cover1_C_3 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : cond1_1 i)
    (x0 : Vec F S3x1x1x1024x64 .bf16) (x1 : Vec F S1x64x768 .bf16) (x2 : Vec F S768 .f32) (xs0 : Vec F S1024x768 .f32) (y : S1x1024x768.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x1024x768.size (by sl_kernel_rfl) y

/-- What case C leaves in output 3's staging buffer: its pieces read back over junk. -/
def out1_C_3 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : cond1_1 i)
    (x0 : Vec F S3x1x1x1024x64 .bf16) (x1 : Vec F S1x64x768 .bf16) (x2 : Vec F S768 .f32) (xs0 : Vec F S1024x768 .f32) : Vec F S1x1024x768 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the scratch, which the kernel carries between points, cover it. -/
theorem scover1_C_0 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : cond1_1 i)
    (x0 : Vec F S3x1x1x1024x64 .bf16) (x1 : Vec F S1x64x768 .bf16) (x2 : Vec F S768 .f32) (xs0 : Vec F S1024x768 .f32) (y : S1024x768.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x768.size (by sl_kernel_rfl) y

/-- What case C leaves in the scratch: its pieces read back over junk. -/
def sout1_C_0 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : cond1_1 i)
    (x0 : Vec F S3x1x1x1024x64 .bf16) (x1 : Vec F S1x64x768 .bf16) (x2 : Vec F S768 .f32) (xs0 : Vec F S1024x768 .f32) : Vec F S1024x768 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output and the scratch hold after each point -/

/-- THE ACCUMULATION. What output 3's staging buffer and the scratch the kernel carries between points hold after the
    body at position `n` (a pair: the output, then the scratch): the case the closed forms select at `n`, run at the
    point's memrefs and input blocks, the scratch it reads before covering at what this leaves at `n - 1`. An
    assignment of the conditions no point meets is no case. -/
def outsAt1 (c : Dev nD) : (n : ℕ) → n < cfg1.N → Vec F S1x1024x768 .f32 × Vec F S1024x768 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 12 = 0 then
      if h1 : (n + 1) % 12 = 11 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 12 = 11 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 12 = 0) (h1 : ¬t.val % 12 = 11) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 12 = 0) (h1 : ¬t.val % 12 = 11) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 12 = 0) (h1 : t.val % 12 = 11) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with the scratch the kernel carries between points: before the first point
    the class's (every scoped buffer that is no staging buffer at anything); afterwards the scratch at what the point
    before left in it (`outsAt1`'s second component), the other scoped buffers at anything, and the generator register
    at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The pipeline's proof data -/

/-- The proof data of region 1 on core `c`: the arrays as the region finds them (`V`); after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    scratch holds what the point before left (anything at the first point); so the case's run applies; the invariant
    hands the body the carried scratch, the other scoped buffers and the generator register, and takes the scratch back
    at this point's contents (its pieces cover it); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 96 := lt_of_lt_of_eq t.isLt (show cfg1.N = 96 from N_1)
  by_cases h0 : t.val % 12 = 0
  · by_cases h1 : t.val % 12 = 11
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 12 = 11
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      ·
        exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      ·
        exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 96 := N_1; omega)

end Cert.Kernel.R1

end
-- ==== Proof.BitsRun.lean ====
/-
  The kernel program as printed, read at the word level, as a run — the same segments as the idealized program's: @main is a stretch of host operations (the weights' casts and re-layout),
  the projection region and the attention region. Between two of these each core holds every unscoped buffer whole:
  at launch the memory's contents; after the host stretch its operations' results; after a region that region's arrays
  at what its write-backs leave (an input array as entered, the output array block by block) and every other buffer
  as entered. Each region enters from the state the one before left; the first region keeps the class's plain
  invariant, the second carries its accumulator across grid points and hands the plain invariant back at the end.
  The run's post names the result array (what the attention region's write-backs leave) and keeps the arguments.
-/
import proofs.«109183_j33913061769280_2_alg».proof.Proof.BitsR0
import proofs.«109183_j33913061769280_2_alg».proof.Proof.BitsR1
import proofs.«109183_j33913061769280_2_alg».proof.Proof.Gen.Kernel.Regions
import Idealize.ShloMosaic.Lib.Pipeline.Kit
import Idealize.ShloMosaic.Lib.Pipeline.RegionsLoop
import Idealize.ShloMosaic.Lib.Pipeline.FrameSuffix

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers after the host stretch, read at the TensorCore's references: what the projection region finds. -/
abbrev U1 : (c : Dev nD) → (b : Ref sig .tc) → Buf (Elt F) ((c : Thread nD τ).loc b) := fun c b => Gen.V1 m c b

/-- After the projection region: its arrays at what its write-backs leave, every other buffer as entered. -/
def W2 (c : Dev nD) : Valuation τ sig (Elt F) :=
  Pipeline.withArrays spec0 c (Gen.V1 m c) fun w => (R0.dat0 (U1 m) c).arrAt w cfg0.N
theorem W2_arr (c : Dev nD) (w : Fin cfg0.W) :
    W2 m c (Proc.devRef .tc (Pipeline.arrRef spec0 w)) = (R0.dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = Gen.V1 m c (Proc.devRef .tc b) := by
  unfold W2; exact Pipeline.withArrays_of_ne spec0 c _ _ b hb
/-- The same read at the TensorCore's references: what the attention region finds. -/
abbrev U2 : (c : Dev nD) → (b : Ref sig .tc) → Buf (Elt F) ((c : Thread nD τ).loc b) := fun c b => W2 m c b
theorem hF0 (c : Dev nD) (w : Fin cfg0.W) : (R0.dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the attention region: its arrays at what its write-backs leave, every other buffer as entered. -/
def W3 (c : Dev nD) : Valuation τ sig (Elt F) :=
  Pipeline.withArrays spec1 c (W2 m c) fun w => (R1.dat1 (U2 m) c).arrAt w cfg1.N
theorem W3_arr (c : Dev nD) (w : Fin cfg1.W) :
    W3 m c (Proc.devRef .tc (Pipeline.arrRef spec1 w)) = (R1.dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (R1.dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-! ## The arguments end as launched; the result is what the attention region leaves -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = Gen.V1 m c (Proc.devRef .tc main_arg0) := (W2_arr m c 0).trans (((R0.dat0 (U1 m) c).arrAt_in 0 rfl _).trans (R0.A_eq0 (U1 m) c 0))
    _ = m ((c : Thread nD τ).loc main_arg0) := (Gen.V1_of m c main_arg0 (by decide)).trans rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = Gen.V1 m c (Proc.devRef .tc main_arg1) := W2_of_ne m c main_arg1 (by decide)
    _ = m ((c : Thread nD τ).loc main_arg1) := (Gen.V1_of m c main_arg1 (by decide)).trans rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = Gen.V1 m c (Proc.devRef .tc main_arg2) := (W2_arr m c 2).trans (((R0.dat0 (U1 m) c).arrAt_in 2 rfl _).trans (R0.A_eq0 (U1 m) c 2))
    _ = m ((c : Thread nD τ).loc main_arg2) := (Gen.V1_of m c main_arg2 (by decide)).trans rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = Gen.V1 m c (Proc.devRef .tc main_arg3) := W2_of_ne m c main_arg3 (by decide)
    _ = m ((c : Thread nD τ).loc main_arg3) := (Gen.V1_of m c main_arg3 (by decide)).trans rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 2).trans (((R1.dat1 (U2 m) c).arrAt_in 2 rfl _).trans (R1.A_eq1 (U2 m) c 2))
    _ = Gen.V1 m c (Proc.devRef .tc main_arg4) := W2_of_ne m c main_arg4 (by decide)
    _ = m ((c : Thread nD τ).loc main_arg4) := (Gen.V1_of m c main_arg4 (by decide)).trans rfl
/-- The result array at the end: block by block what the attention region wrote back. -/
theorem W3_main_v5 (c : Dev nD) : W3 m c (Proc.devRef .tc main_v5) = (R1.dat1 (U2 m) c).arrAt 3 cfg1.N := W3_arr m c 3

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => R0.dat0 (U1 m) c
  | ⟨1, _⟩ => fun c => R1.dat1 (U2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The projection region: entered from every unscoped buffer after the host stretch, left with its arrays at what its
    write-backs leave; the generator register into the invariant and out; nothing owed; no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (U1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from what the projection region left, left with its arrays at what its write-backs
    leave. Its invariant carries the accumulator from point to point: it starts as the plain one (the scratch at
    anything, the generator register) and ends giving the plain one back. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from R1.hin1 (U2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from R1.hout1 (U2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host stretch, the projection region, the attention region. -/
abbrev msegs : List (Pipeline.Seg (pcfgs (F := F)) Gen.adm (pdats m) () defs₀ 𝒱₀ L lv) :=
  [ .host (hseg0 m), .region (reg0 m), .region (reg1 m) ]
/-- @main IS the run of the segments. -/
theorem main_run (c : Dev nD) : main (F := F) c = Pipeline.Seg.run (msegs m) := (main_chain c).trans (by chain_rfl)

set_option backward.isDefEq.respectTransparency.types false in
/-- THE RUN. From any memory with zero counters every weakly fair execution of @main on the TensorCores terminates,
    nothing faulting; every final state has the result array at what the attention region's write-backs leave and the
    five argument arrays as launched. -/
theorem run : θ_run defs (onTc (τ := τ) (main (F := F))) ⟨m, fun _ => 0, ρ⟩ (fun r => ∀ c : Dev nD,
      r.2.mem ((c.tc : Thread nD τ).loc main_v5) = (R1.dat1 (U2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) Gen.adm (pdats m) () cellOf_inj emb₁ defs₀ 𝒱₀ L lv m ρ main (msegs m)
    (fun c Q => by rw [main_run m c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v5 (by decide))).trans (W3_main_v5 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run m ρ)

end Cert.Kernel.Whole

end
-- ==== Proof.IdealR0.lean ====
/-
  Region 0 (the fused projection's call, a grid of 8 × 4 points), at the contents `V` its core's buffers hold when
  the region is entered, over any float model.

  Windows 0, 1, 2 are inputs (the activations' block, the weights, the bias) and window 3 is the output. At every
  point the body reads the three input buffers whole and overwrites the output buffer whole with one value, a
  function of the three (`out0_3`). So the proof data says: after the body each input buffer still holds its
  block and the output buffer holds `out0_3` of the three blocks; the invariant is the class's (nothing else is
  touched), nothing is owed, and every share is full. The body obligation follows from the body's triple.
-/
import proofs.«109183_j33913061769280_2_alg».proof.Proof.Gen.KernelIdeal.Launch
import proofs.«109183_j33913061769280_2_alg».proof.Proof.Gen.KernelIdeal.Skeleton
import proofs.«109183_j33913061769280_2_alg».proof.Proof.Gen.KernelIdeal.Points
import Idealize.ShloMosaic.Lib.Pipeline.FrameBody
import Idealize.ShloMosaic.Lib.Ring
import Idealize.ShloMosaic.Lib.Tactic

-- membership in a rectangle of long extents recurses once per coordinate of the long axes
set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its index has not moved, and the window is neither cut nor ever idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): where the window is not
    fetched its index has not moved, and the window is neither cut nor ever idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): where the window is not
    fetched its index has not moved, and the window is neither cut nor ever idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1x256x768 := Rect.unit (s := S1x256x768) ![0, 0, 0] S1x256x768.size inb_S1x256x768_S1x256x768_0_0_0
abbrev r0_1 : Rect S2304x768 := Rect.unit (s := S2304x768) ![0, 0] S2304x768.size inb_S2304x768_S2304x768_0_0
abbrev r0_2 : Rect S2304 := Rect.unit (s := S2304) ![0] S2304.size inb_S2304_S2304_0
abbrev r0_3 : Rect S3x1x12x256x64 := Rect.unit (s := S3x1x12x256x64) ![0, 0, 0, 0, 0] S3x1x12x256x64.size inb_S3x1x12x256x64_S3x1x12x256x64_0_0_0_0_0

/-! ## What the body leaves in the output window's buffer -/

/-- Window 3's buffer after the body, from the input windows' blocks: its one store, of the whole buffer. -/
def out0_3 (x0 : Vec F S1x256x768 .f32) (x1 : Vec F S2304x768 .bf16) (x2 : Vec F S2304 .f32) : Vec F S3x1x12x256x64 .bf16 :=
  View.canon [⟨r0_3, k0_pay1 (View.ld x0 r0_0) (View.ld x1 r0_1) (View.ld x2 r0_2)⟩]

/-- The store's rectangle is the whole buffer, so it covers it. -/
theorem cover0_3 (p0 : Vec F S3x1x12x256x64 .bf16) (y : S3x1x12x256x64.Idx) :
    ∃ pc ∈ ([⟨r0_3, p0⟩] : List (View.Piece (Elt F) S3x1x12x256x64 .bf16)), y ∈ pc.1.set :=
  View.cover_of_tiled [⟨r0_3, p0⟩] S3x1x12x256x64.size (by rfl) y

/-! ## The body's triple -/

set_option maxHeartbeats 1000000 in
/-- The body on whole buffers, the inputs' at contents `x0 x1 x2` and the output's at anything, runs to the
    continuation holding the inputs' as they were and the output's at `out0_3 x0 x1 x2`. -/
theorem sound_kernel0 (c : Dev nD) (E : Set ℕ) (i : grid0.Coords) (arg2 : Memref sig .tc .vmem S1x256x768 .f32) (harg2 : arg2.IsWhole) (arg3 : Memref sig .tc .vmem S2304x768 .bf16) (harg3 : arg3.IsWhole) (arg4 : Memref sig .tc .vmem S2304 .f32) (harg4 : arg4.IsWhole) (arg5 : Memref sig .tc .vmem S3x1x12x256x64 .bf16) (harg5 : arg5.IsWhole)
    (x0 : Vec F S1x256x768 .f32) (x1 : Vec F S2304x768 .bf16) (x2 : Vec F S2304 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__qkv_kernel i arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.IdealR1Runs.lean ====
/-
  Region 1 (the attention and output-projection kernel, grid 8 × 12): what the three runs of its body share.
  The windows' blocks read off the arrays as the region finds them; the two branch conditions of the body in
  closed form over the grid (the head coordinate h = t mod 12 is 0, resp. 11); where output window 3 is idle;
  the staging and scratch memrefs; and the region invariant with the scratch as an owned memref.
-/
import proofs.«109183_j33913061769280_2_alg».proof.Proof.Gen.KernelIdeal.Launch
import proofs.«109183_j33913061769280_2_alg».proof.Proof.Gen.KernelIdeal.Skeleton
import proofs.«109183_j33913061769280_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle over the long axes (a thousand coordinates each) is unfolded coordinate by coordinate:
-- deep recursion
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2 (fetched at the first point only: its block index never moves). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the reset of the scratch), from the grid coordinates: the
    head coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 12) — decided over the grid. -/
theorem hcond1_0 : ∀ t : Fin cfg1.N, cond1_0 (grid1.coords t) ↔ t.val % 12 = 0 :=
  (by decide +kernel : ∀ t : Fin grid1.N, cond1_0 (grid1.coords t) ↔ t.val % 12 = 0)

/-- The condition of the body's second conditional (the store of the result), from the grid coordinates: the
    head coordinate is 11. -/
abbrev cond1_1 (i : grid1.Coords) : Prop := k1_cond2 i = 1#1
/-- It holds at the points ≡ 11 (mod 12) — decided over the grid. -/
theorem hcond1_1 : ∀ t : Fin cfg1.N, cond1_1 (grid1.coords t) ↔ t.val % 12 = 11 :=
  (by decide +kernel : ∀ t : Fin grid1.N, cond1_1 (grid1.coords t) ↔ t.val % 12 = 11)

/-! ## Where the windows are idle -/

/-- Windows 0, 1, 2 are never idle (inputs). -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A output 3 is idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B output 3 is idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C output 3 is live: the case stores into it. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of output window 3, through which its contents are stated (the choice does not matter). -/
abbrev VO1_3 : View sig .tc .vmem S1x1024x768 .f32 := (Memref.whole cc1_stg3_0 : Memref sig .tc .vmem S1x1024x768 .f32).view
/-- Each window's current staging memref at point `t`, spelled as the pipeline passes it, and its wholeness. -/
abbrev ms1_0 (t : Fin cfg1.N) : Memref sig .tc .vmem S3x1x1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x768 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S1024x768 .f32 := Memref.whole cc1_scratch0
/-- The scratch the kernel carries between points, as a view: what it holds is stated through it. -/
abbrev VS1_0 : View sig .tc .vmem S1024x768 .f32 := scM1_0.view

/-- The other call's staging buffers, each whole at some contents: scoped buffers this kernel does not touch. -/
def rest1 (c : Dev nD) : sProp 𝕄 :=
  bigSepL [cc0_stg0_0, cc0_stg0_1, cc0_stg1_0, cc0_stg2_0, cc0_stg3_0, cc0_stg3_1]
    fun b => iprop(∃ f : Buf (Elt F) ((c : Thread nD τ).loc b), ((c : Thread nD τ).loc b) ↦{fullShare} f)

/-- The region's invariant with the scratch operand as a memref owned at some contents, the core's other scoped
    buffers beside it: what the body obligation hands the run and takes back. -/
theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA
  rw [Pipeline.scopedRest_eq_of_list spec1 c [cc1_scratch0, cc0_stg0_0, cc0_stg0_1, cc0_stg1_0, cc0_stg2_0, cc0_stg3_0, cc0_stg3_1] (by decide) (by decide)]
  simp only [scM1_0, owns_whole]; try rfl

end Cert.KernelIdeal.R1

end
-- ==== Proof.IdealR1RunA.lean ====
/-
  Region 1, case A (head coordinate 0: the scratch is reset, the result is not stored): the run of the whole body.
  On whole staging memrefs — the inputs' at their contents, output 3's at contents handed back untouched, the scratch
  at anything — the body runs to the continuation holding the inputs' as they were and the scratch with its pieces
  written. The pieces are the witness the run finds.
-/
import proofs.«109183_j33913061769280_2_alg».proof.Proof.IdealR1Runs

-- membership in a rectangle over the long axes (a thousand coordinates each) is unfolded coordinate by coordinate:
-- deep recursion
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the body's triple below is a large term)
set_option maxHeartbeats 1000000 in
/-- What the body's stores leave in output 3's staging memref and in the scratch, as pieces (last first), in case A,
    with the proof of the body's triple. -/
noncomputable def kernelRun1_A (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : cond1_0 i) (hc1 : ¬cond1_1 i)
    (x0 : Vec F S3x1x1x1024x64 .bf16) (x1 : Vec F S1x64x768 .bf16) (x2 : Vec F S768 .f32) :
    Σ' (L3 : List (View.Piece (Elt F) S1x1024x768 .f32)), { LS0 : List (View.Piece (Elt F) S1024x768 .f32) //
      ∀ (xi3 : Vec F S1x1024x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_proj_kernel i arg2 harg2 arg3 harg3 arg4 harg4 arg5 harg5 arg6 harg6) K } := by
  refine ⟨[], ?_, fun xi3 E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.R1

end
-- ==== Proof.IdealR1RunB.lean ====
/-
  Region 1, case B (head coordinate strictly between 0 and 11: neither conditional is taken): the run of the whole body.
  On whole staging memrefs — the inputs' at their contents, output 3's at contents handed back untouched, the scratch
  at what the point before left — the body runs to the continuation holding the inputs' as they were and the scratch
  with its pieces written. The pieces are the witness the run finds.
-/
import proofs.«109183_j33913061769280_2_alg».proof.Proof.IdealR1RunA

-- membership in a rectangle over the long axes (a thousand coordinates each) is unfolded coordinate by coordinate:
-- deep recursion
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the body's triple below is a large term)
set_option maxHeartbeats 1000000 in
/-- What the body's stores leave in output 3's staging memref and in the scratch, as pieces (last first), in case B,
    with the proof of the body's triple. -/
noncomputable def kernelRun1_B (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : ¬cond1_1 i)
    (x0 : Vec F S3x1x1x1024x64 .bf16) (x1 : Vec F S1x64x768 .bf16) (x2 : Vec F S768 .f32) (xs0 : Vec F S1024x768 .f32) :
    Σ' (L3 : List (View.Piece (Elt F) S1x1024x768 .f32)), { LS0 : List (View.Piece (Elt F) S1024x768 .f32) //
      ∀ (xi3 : Vec F S1x1024x768 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_proj_kernel i arg2 harg2 arg3 harg3 arg4 harg4 arg5 harg5 arg6 harg6) K } := by
  refine ⟨[], ?_, fun xi3 E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.R1

end
-- ==== Proof.IdealR1RunC.lean ====
/-
  Region 1, case C (head coordinate 11: the scratch is not reset, the result is stored): the run of the whole body.
  On whole staging memrefs — the inputs' at their contents, output 3's at anything, the scratch at what the point
  before left — the body runs to the continuation holding the inputs' as they were, output 3's buffer and the scratch
  each with its pieces written. The pieces are the witness the run finds.
-/
import proofs.«109183_j33913061769280_2_alg».proof.Proof.IdealR1RunB

-- membership in a rectangle over the long axes (a thousand coordinates each) is unfolded coordinate by coordinate:
-- deep recursion
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the body's triple below is a large term)
set_option maxHeartbeats 1000000 in
/-- What the body's stores leave in output 3's staging memref and in the scratch, as pieces (last first), in case C,
    with the proof of the body's triple. -/
noncomputable def kernelRun1_C (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : cond1_1 i)
    (x0 : Vec F S3x1x1x1024x64 .bf16) (x1 : Vec F S1x64x768 .bf16) (x2 : Vec F S768 .f32) (xs0 : Vec F S1024x768 .f32) :
    Σ' (L3 : List (View.Piece (Elt F) S1x1024x768 .f32)), { LS0 : List (View.Piece (Elt F) S1024x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__attn_proj_kernel i arg2 harg2 arg3 harg3 arg4 harg4 arg5 harg5 arg6 harg6) K } := by
  refine ⟨?_, ?_, fun E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.R1

end
-- ==== Proof.IdealR1.lean ====
/-
  Region 1 (the attention and output-projection kernel, grid 8 × 12): the frame half. What output window 3 and the
  f32 scratch hold per case of the body's two conditionals (covers, contents as pieces read back) and point by point
  (`outsAt1`: the scratch is carried from point to point; the output is stored only where the head coordinate is 11
  and is idle, not written back, elsewhere), the proof data `dat1` over any contents `V` of the arrays at the region's
  entry, and the body obligation with the invariant's two ends.
-/
import proofs.«109183_j33913061769280_2_alg».proof.Proof.IdealR1RunC

-- membership in a rectangle over the long axes (a thousand coordinates each) is unfolded coordinate by coordinate:
-- deep recursion
set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 3 (the window is idle at its points and not written back there): no pieces —
    a placeholder (junk read back) that nothing consults. -/
def out1_A_3 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : cond1_0 i) (hc1 : ¬cond1_1 i)
    (x0 : Vec F S3x1x1x1024x64 .bf16) (x1 : Vec F S1x64x768 .bf16) (x2 : Vec F S768 .f32) : Vec F S1x1024x768 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the scratch, which the kernel carries between points, cover it. -/
theorem scover1_A_0 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : cond1_0 i) (hc1 : ¬cond1_1 i)
    (x0 : Vec F S3x1x1x1024x64 .bf16) (x1 : Vec F S1x64x768 .bf16) (x2 : Vec F S768 .f32) (y : S1024x768.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x768.size (by sl_kernel_rfl) y

/-- What case A leaves in the scratch: its pieces read back over junk. -/
def sout1_A_0 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : cond1_0 i) (hc1 : ¬cond1_1 i)
    (x0 : Vec F S3x1x1x1024x64 .bf16) (x1 : Vec F S1x64x768 .bf16) (x2 : Vec F S768 .f32) : Vec F S1024x768 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into output 3 (the window is idle at its points and not written back there): no pieces —
    a placeholder (junk read back) that nothing consults. -/
def out1_B_3 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : ¬cond1_1 i)
    (x0 : Vec F S3x1x1x1024x64 .bf16) (x1 : Vec F S1x64x768 .bf16) (x2 : Vec F S768 .f32) (xs0 : Vec F S1024x768 .f32) : Vec F S1x1024x768 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the scratch, which the kernel carries between points, cover it. -/
theorem scover1_B_0 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : ¬cond1_1 i)
    (x0 : Vec F S3x1x1x1024x64 .bf16) (x1 : Vec F S1x64x768 .bf16) (x2 : Vec F S768 .f32) (xs0 : Vec F S1024x768 .f32) (y : S1024x768.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x768.size (by sl_kernel_rfl) y

/-- What case B leaves in the scratch: its pieces read back over junk. -/
def sout1_B_0 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : ¬cond1_1 i)
    (x0 : Vec F S3x1x1x1024x64 .bf16) (x1 : Vec F S1x64x768 .bf16) (x2 : Vec F S768 .f32) (xs0 : Vec F S1024x768 .f32) : Vec F S1024x768 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's pieces for output 3 tile its block (one store of the whole block), so they cover it. -/
theorem cover1_C_3 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : cond1_1 i)
    (x0 : Vec F S3x1x1x1024x64 .bf16) (x1 : Vec F S1x64x768 .bf16) (x2 : Vec F S768 .f32) (xs0 : Vec F S1024x768 .f32) (y : S1x1024x768.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1x1024x768.size (by sl_kernel_rfl) y

/-- What case C leaves in output 3's staging buffer: its pieces read back over junk. -/
def out1_C_3 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : cond1_1 i)
    (x0 : Vec F S3x1x1x1024x64 .bf16) (x1 : Vec F S1x64x768 .bf16) (x2 : Vec F S768 .f32) (xs0 : Vec F S1024x768 .f32) : Vec F S1x1024x768 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the scratch, which the kernel carries between points, cover it. -/
theorem scover1_C_0 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : cond1_1 i)
    (x0 : Vec F S3x1x1x1024x64 .bf16) (x1 : Vec F S1x64x768 .bf16) (x2 : Vec F S768 .f32) (xs0 : Vec F S1024x768 .f32) (y : S1024x768.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x768.size (by sl_kernel_rfl) y

/-- What case C leaves in the scratch: its pieces read back over junk. -/
def sout1_C_0 (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬cond1_0 i) (hc1 : cond1_1 i)
    (x0 : Vec F S3x1x1x1024x64 .bf16) (x1 : Vec F S1x64x768 .bf16) (x2 : Vec F S768 .f32) (xs0 : Vec F S1024x768 .f32) : Vec F S1024x768 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output and the scratch hold after each point -/

/-- THE ACCUMULATION. What output 3's staging buffer and the scratch the kernel carries between points hold after the
    body at position `n` (a pair: the output, then the scratch): the case the closed forms select at `n`, run at the
    point's memrefs and input blocks, the scratch it reads before covering at what this leaves at `n - 1`. An
    assignment of the conditions no point meets is no case. -/
def outsAt1 (c : Dev nD) : (n : ℕ) → n < cfg1.N → Vec F S1x1024x768 .f32 × Vec F S1024x768 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 12 = 0 then
      if h1 : (n + 1) % 12 = 11 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 12 = 11 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 12 = 0) (h1 : ¬t.val % 12 = 11) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 12 = 0) (h1 : ¬t.val % 12 = 11) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 12 = 0) (h1 : t.val % 12 = 11) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with the scratch the kernel carries between points: before the first point
    the class's (every scoped buffer that is no staging buffer at anything); afterwards the scratch at what the point
    before left in it (`outsAt1`'s second component), the other scoped buffers at anything, and the generator register
    at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

/-! ## The pipeline's proof data -/

/-- The proof data of region 1 on core `c`: the arrays as the region finds them (`V`); after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    scratch holds what the point before left (anything at the first point); so the case's run applies; the invariant
    hands the body the carried scratch, the other scoped buffers and the generator register, and takes the scratch back
    at this point's contents (its pieces cover it); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 96 := lt_of_lt_of_eq t.isLt (show cfg1.N = 96 from N_1)
  by_cases h0 : t.val % 12 = 0
  · by_cases h1 : t.val % 12 = 11
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 12 = 11
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      ·
        exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      ·
        exfalso; omega
      ·
        rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 96 := N_1; omega)

end Cert.KernelIdeal.R1

end
-- ==== Proof.IdealRun.lean ====
/-
  The idealized kernel program as a run: @main is a stretch of host operations (the weights' casts and re-layout),
  the projection region and the attention region. Between two of these each core holds every unscoped buffer whole:
  at launch the memory's contents; after the host stretch its operations' results; after a region that region's arrays
  at what its write-backs leave (an input array as entered, the output array block by block) and every other buffer
  as entered. Each region enters from the state the one before left; the first region keeps the class's plain
  invariant, the second carries its accumulator across grid points and hands the plain invariant back at the end.
  The run's post names the result array (what the attention region's write-backs leave) and keeps the arguments.
-/
import proofs.«109183_j33913061769280_2_alg».proof.Proof.IdealR0
import proofs.«109183_j33913061769280_2_alg».proof.Proof.IdealR1
import proofs.«109183_j33913061769280_2_alg».proof.Proof.Gen.KernelIdeal.Regions
import Idealize.ShloMosaic.Lib.Pipeline.Kit
import Idealize.ShloMosaic.Lib.Pipeline.RegionsLoop
import Idealize.ShloMosaic.Lib.Pipeline.FrameSuffix

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers after the host stretch, read at the TensorCore's references: what the projection region finds. -/
abbrev U1 : (c : Dev nD) → (b : Ref sig .tc) → Buf (Elt F) ((c : Thread nD τ).loc b) := fun c b => Gen.V1 m c b

/-- After the projection region: its arrays at what its write-backs leave, every other buffer as entered. -/
def W2 (c : Dev nD) : Valuation τ sig (Elt F) :=
  Pipeline.withArrays spec0 c (Gen.V1 m c) fun w => (R0.dat0 (U1 m) c).arrAt w cfg0.N
theorem W2_arr (c : Dev nD) (w : Fin cfg0.W) :
    W2 m c (Proc.devRef .tc (Pipeline.arrRef spec0 w)) = (R0.dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = Gen.V1 m c (Proc.devRef .tc b) := by
  unfold W2; exact Pipeline.withArrays_of_ne spec0 c _ _ b hb
/-- The same read at the TensorCore's references: what the attention region finds. -/
abbrev U2 : (c : Dev nD) → (b : Ref sig .tc) → Buf (Elt F) ((c : Thread nD τ).loc b) := fun c b => W2 m c b
theorem hF0 (c : Dev nD) (w : Fin cfg0.W) : (R0.dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the attention region: its arrays at what its write-backs leave, every other buffer as entered. -/
def W3 (c : Dev nD) : Valuation τ sig (Elt F) :=
  Pipeline.withArrays spec1 c (W2 m c) fun w => (R1.dat1 (U2 m) c).arrAt w cfg1.N
theorem W3_arr (c : Dev nD) (w : Fin cfg1.W) :
    W3 m c (Proc.devRef .tc (Pipeline.arrRef spec1 w)) = (R1.dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (R1.dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-! ## The arguments end as launched; the result is what the attention region leaves -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = Gen.V1 m c (Proc.devRef .tc main_arg0) := (W2_arr m c 0).trans (((R0.dat0 (U1 m) c).arrAt_in 0 rfl _).trans (R0.A_eq0 (U1 m) c 0))
    _ = m ((c : Thread nD τ).loc main_arg0) := (Gen.V1_of m c main_arg0 (by decide)).trans rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = Gen.V1 m c (Proc.devRef .tc main_arg1) := W2_of_ne m c main_arg1 (by decide)
    _ = m ((c : Thread nD τ).loc main_arg1) := (Gen.V1_of m c main_arg1 (by decide)).trans rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = Gen.V1 m c (Proc.devRef .tc main_arg2) := (W2_arr m c 2).trans (((R0.dat0 (U1 m) c).arrAt_in 2 rfl _).trans (R0.A_eq0 (U1 m) c 2))
    _ = m ((c : Thread nD τ).loc main_arg2) := (Gen.V1_of m c main_arg2 (by decide)).trans rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = Gen.V1 m c (Proc.devRef .tc main_arg3) := W2_of_ne m c main_arg3 (by decide)
    _ = m ((c : Thread nD τ).loc main_arg3) := (Gen.V1_of m c main_arg3 (by decide)).trans rfl
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 2).trans (((R1.dat1 (U2 m) c).arrAt_in 2 rfl _).trans (R1.A_eq1 (U2 m) c 2))
    _ = Gen.V1 m c (Proc.devRef .tc main_arg4) := W2_of_ne m c main_arg4 (by decide)
    _ = m ((c : Thread nD τ).loc main_arg4) := (Gen.V1_of m c main_arg4 (by decide)).trans rfl
/-- The result array at the end: block by block what the attention region wrote back. -/
theorem W3_main_v5 (c : Dev nD) : W3 m c (Proc.devRef .tc main_v5) = (R1.dat1 (U2 m) c).arrAt 3 cfg1.N := W3_arr m c 3

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => R0.dat0 (U1 m) c
  | ⟨1, _⟩ => fun c => R1.dat1 (U2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- The host stretch as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (Gen.V0 m) R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last contents, the generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The projection region: entered from every unscoped buffer after the host stretch, left with its arrays at what its
    write-backs leave; the generator register into the invariant and out; nothing owed; no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (U1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from what the projection region left, left with its arrays at what its write-backs
    leave. Its invariant carries the accumulator from point to point: it starts as the plain one (the scratch at
    anything, the generator register) and ends giving the plain one back. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from R1.hin1 (U2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from R1.hout1 (U2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host stretch, the projection region, the attention region. -/
abbrev msegs : List (Pipeline.Seg (pcfgs (F := F)) Gen.adm (pdats m) () defs₀ 𝒱₀ L lv) :=
  [ .host (hseg0 m), .region (reg0 m), .region (reg1 m) ]
/-- @main IS the run of the segments. -/
theorem main_run (c : Dev nD) : main (F := F) c = Pipeline.Seg.run (msegs m) := (main_chain c).trans (by chain_rfl)

set_option backward.isDefEq.respectTransparency.types false in
/-- THE RUN. From any memory with zero counters every weakly fair execution of @main on the TensorCores terminates,
    nothing faulting; every final state has the result array at what the attention region's write-backs leave and the
    five argument arrays as launched. -/
theorem run : θ_run defs (onTc (τ := τ) (main (F := F))) ⟨m, fun _ => 0, ρ⟩ (fun r => ∀ c : Dev nD,
      r.2.mem ((c.tc : Thread nD τ).loc main_v5) = (R1.dat1 (U2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) Gen.adm (pdats m) () cellOf_inj emb₁ defs₀ 𝒱₀ L lv m ρ main (msegs m)
    (fun c Q => by rw [main_run m c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v5 (by decide))).trans (W3_main_v5 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run m ρ)

end Cert.KernelIdeal.Whole

end
-- ==== Proof.Spec.lean ====
/-
  The function both programs compute, stated once over the extended reals and over coordinates.

  From activations x[b,t,k], the fused projection weights w[c,k] and bias bq[c] (c = s·768 + h·64 + d names
  the role s ∈ {query, key, value}, the head h and the lane d), the output projection pw[e,j] and bias pb[e]:

    qkv[s,b,h,t,d]  = (∑ₖ x[b,t,k] · w[c(s,h,d),k]) + bq[c(s,h,d)]
    score[b,h,t,u]  = (∑_d qkv[0,b,h,t,d] · qkv[1,b,h,u,d]) · 1/8
    rowMax[b,h,t]   = max over u of score[b,h,t,u]            (folded from -∞)
    num[b,h,t,u]    = exp (score[b,h,t,u] − rowMax[b,h,t])
    den[b,h,t]      = ∑ᵤ num[b,h,t,u]
    head[b,h,t,d]   = ∑ᵤ (num[b,h,t,u] / den[b,h,t]) · qkv[2,b,h,u,d]
    part[b,h,t,e]   = ∑_d head[b,h,t,d] · ph[h,d,e]            with ph[h,d,e] = pw[e, h·64 + d]
    out[b,t,e]      = (((0 + part[b,0,t,e]) + part[b,1,t,e]) + … + part[b,11,t,e]) + pb[e]

  The last line keeps the order in which the heads' contributions are added one after the other, starting from zero.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

abbrev X : Type := (⟨3, ![8, 1024, 768]⟩ : Shape).Idx → EReal
abbrev Wq : Type := (⟨2, ![2304, 768]⟩ : Shape).Idx → EReal
abbrev Bq : Type := (⟨1, ![2304]⟩ : Shape).Idx → EReal
abbrev Pw : Type := (⟨2, ![768, 768]⟩ : Shape).Idx → EReal
abbrev Pb : Type := (⟨1, ![768]⟩ : Shape).Idx → EReal
abbrev QKV : Type := (⟨5, ![3, 8, 12, 1024, 64]⟩ : Shape).Idx → EReal
abbrev PwH : Type := (⟨3, ![12, 64, 768]⟩ : Shape).Idx → EReal

/-- The column of the fused projection that role `s`, head `h`, lane `d` name. -/
def col (s : Fin 3) (h : Fin 12) (d : Fin 64) : Fin 2304 := ⟨s.val * 768 + h.val * 64 + d.val, by omega⟩

/-- The input feature that head `h`, lane `d` name in the output projection. -/
def feat (h : Fin 12) (d : Fin 64) : Fin 768 := ⟨h.val * 64 + d.val, by omega⟩

/-- One entry of the fused projection, by coordinates. -/
def qkvAt (x : X) (w : Wq) (bq : Bq) (s : Fin 3) (b : Fin 8) (h : Fin 12) (t : Fin 1024) (d : Fin 64) : EReal :=
  (∑ k : Fin 768, x (ix3 b t k) * w (ix2 (col s h d) k)) + bq (ix1 (col s h d))

/-- The fused projection as the array [3, 8, 12, 1024, 64]. -/
def qkv (x : X) (w : Wq) (bq : Bq) : QKV := fun i => qkvAt x w bq (i 0) (i 1) (i 2) (i 3) (i 4)

theorem qkv_ix5 (x : X) (w : Wq) (bq : Bq) (s : Fin 3) (b : Fin 8) (h : Fin 12) (t : Fin 1024) (d : Fin 64) :
    qkv x w bq (ix5 s b h t d) = qkvAt x w bq s b h t d := rfl

/-- The output projection's weights by head: ph[h,d,e] = pw[e, h·64 + d]. -/
def pwh (pw : Pw) : PwH := fun i => pw (ix2 (i 2) (feat (i 0) (i 1)))

theorem pwh_ix3 (pw : Pw) (h : Fin 12) (d : Fin 64) (e : Fin 768) : pwh pw (ix3 h d e) = pw (ix2 e (feat h d)) := rfl

/-- The scale 1/8, as the literal both programs carry. -/
def scale : EReal := Ideal.ofBits .f32 0x3E000000#32
/-- −∞, as the literal both maxima start from. -/
def ninf : EReal := Ideal.ofBits .f32 0xFF800000#32

section
variable (A : QKV)

def score (b : Fin 8) (h : Fin 12) (t u : Fin 1024) : EReal :=
  (∑ d : Fin 64, A (ix5 (0 : Fin 3) b h t d) * A (ix5 (1 : Fin 3) b h u d)) * scale

def rowMax (b : Fin 8) (h : Fin 12) (t : Fin 1024) : EReal :=
  (Finset.univ : Finset (Fin 1024)).fold max ninf (fun u => score A b h t u)

def num (b : Fin 8) (h : Fin 12) (t u : Fin 1024) : EReal := Ideal.exp (score A b h t u - rowMax A b h t)

def den (b : Fin 8) (h : Fin 12) (t : Fin 1024) : EReal := ∑ u : Fin 1024, num A b h t u

def head (b : Fin 8) (h : Fin 12) (t : Fin 1024) (d : Fin 64) : EReal :=
  ∑ u : Fin 1024, Ideal.div (num A b h t u) (den A b h t) * A (ix5 (2 : Fin 3) b h u d)

variable (ph : PwH)

def part (b : Fin 8) (h : Fin 12) (t : Fin 1024) (e : Fin 768) : EReal :=
  ∑ d : Fin 64, head A b h t d * ph (ix3 h d e)

/-- The heads' contributions added one after the other, from zero: the first `n` of them. -/
def accum (b : Fin 8) (t : Fin 1024) (e : Fin 768) : ℕ → EReal
  | 0 => 0
  | n + 1 => accum b t e n + (if hn : n < 12 then part A ph b ⟨n, hn⟩ t e else 0)

theorem accum_zero (b : Fin 8) (t : Fin 1024) (e : Fin 768) : accum A ph b t e 0 = 0 := rfl
theorem accum_succ (b : Fin 8) (t : Fin 1024) (e : Fin 768) (h : Fin 12) :
    accum A ph b t e (h.val + 1) = accum A ph b t e h.val + part A ph b h t e := by
  show accum A ph b t e h.val + (if hn : h.val < 12 then part A ph b ⟨h.val, hn⟩ t e else 0) = _
  rw [dif_pos h.isLt]

variable (pb : Pb)

def outAt (b : Fin 8) (t : Fin 1024) (e : Fin 768) : EReal := accum A ph b t e 12 + pb (ix1 e)

/-- Attention and the output projection from a fused-projection array, as the array [8, 1024, 768]. -/
def attnOut : X := fun i => outAt A ph pb (i 0) (i 1) (i 2)

theorem attnOut_ix3 (b : Fin 8) (t : Fin 1024) (e : Fin 768) : attnOut A ph pb (ix3 b t e) = outAt A ph pb b t e := rfl

end

/-- The whole function of the five arguments. -/
def whole (x : X) (w : Wq) (bq : Bq) (pw : Pw) (pb : Pb) : X := attnOut (qkv x w bq) (pwh pw) pb

end Cert.Attn

end
-- ==== Proof.IdealHost.lean ====
/-
  What the host stretch before the two regions leaves, at the extended reals: the cast of the fused projection's
  weights to the narrow format is the identity, and the output projection's weights transposed, cut by heads
  ([768, 768] → [12, 64, 768]) and cast are ph[h,d,e] = pw[e, h·64 + d]. The arguments themselves are not written.
-/
import proofs.«109183_j33913061769280_2_alg».proof.Proof.Gen.KernelIdeal.Regions
import proofs.«109183_j33913061769280_2_alg».proof.Proof.Spec
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.HostValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The narrow copy of the fused projection's weights holds the weights. -/
theorem v0_eq (c : Dev nD) :
    (Gen.V1 m c (Proc.devRef .tc main_v0) : S2304x768.Idx → EReal) = m ((c : Thread nD τ).loc main_arg1) := by
  show StableHlo.after hostOps0 (fun b => m (c, b)) (Proc.devRef .tc main_v0) = _
  after_results
  rfl

/-- The by-head copy of the output projection's weights, as the host operations' term. -/
theorem v3_term (c : Dev nD) :
    (Gen.V1 m c (Proc.devRef .tc main_v3) : S12x64x768.Idx → EReal)
      = truncf (F := Ideal) .bf16 (shapeCast S12x64x768 (transpose S768x768 [1, 0] (m ((c : Thread nD τ).loc main_arg3) : FVec Ideal S768x768 .f32)
          Facts₀.transposes_S768x768_S768x768_1_0) Facts₀.shapeCasts_S768x768_S12x64x768) Facts₀.bitsLt_bf16_f32 := by
  show StableHlo.after hostOps0 (fun b => m (c, b)) (Proc.devRef .tc main_v3) = _
  after_results
  rfl

/-- Entry (h, d, e) of the by-head copy is the weight pw[e, h·64 + d]. -/
theorem relaid_apply (pw : FVec Ideal S768x768 .f32) (h : Fin 12) (d : Fin 64) (e : Fin 768) :
    (truncf (F := Ideal) .bf16 (shapeCast S12x64x768 (transpose S768x768 [1, 0] pw Facts₀.transposes_S768x768_S768x768_1_0)
        Facts₀.shapeCasts_S768x768_S12x64x768) Facts₀.bitsLt_bf16_f32) (ix3 h d e)
      = pw (ix2 e (Cert.Attn.feat h d)) := by
  rw [truncf_apply]
  refine (shapeCast_apply _ Facts₀.shapeCasts_S768x768_S12x64x768 (ix3 h d e) (ix2 (Cert.Attn.feat h d) e) ?_).trans ?_
  · rw [Shape.rowMajor_val_two, Shape.rowMajor_val_three]
    show (h.val * 64 + d.val) * 768 + e.val = (h.val * 64 + d.val) * 768 + e.val
    rfl
  · exact transpose_ix2_apply pw _ (Cert.Attn.feat h d) e

/-- The by-head copy is the specification's `pwh` of the output projection's weights. -/
theorem v3_eq (c : Dev nD) :
    (Gen.V1 m c (Proc.devRef .tc main_v3) : S12x64x768.Idx → EReal) = Cert.Attn.pwh (m ((c : Thread nD τ).loc main_arg3)) := by
  rw [v3_term]
  funext i
  obtain ⟨h, d, e, rfl⟩ : ∃ (h : Fin 12) (d : Fin 64) (e : Fin 768), i = ix3 h d e := ⟨i 0, i 1, i 2, eq_ix3 i⟩
  rw [relaid_apply, Cert.Attn.pwh_ix3]

end Cert.KernelIdeal.HostValue

end
-- ==== Proof.IdealPay0.lean ====
/-
  The fused projection's body at an index, over the extended reals.

  The body multiplies the activations' block x[0, r, k] (256 rows of one batch) by the weights w[c, k], contracting
  k, adds the bias bq[c], and lays the [256, 2304] result out as [3, 1, 12, 256, 64]: the column c = s·768 + h·64 + d
  is split into the role s, the head h and the lane d, the row axis is moved behind them, and a unit axis is put in
  after the role. The roundings to the narrower float are the identity on the extended reals. So the entry at
  (s, 0, h, r, d) is (∑ₖ x[0, r, k] · w[c(s,h,d), k]) + bq[c(s,h,d)].
-/
import proofs.«109183_j33913061769280_2_alg».proof.Proof.Gen.KernelIdeal.Skeleton
import proofs.«109183_j33913061769280_2_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Val0

open Idealize.ShloMosaic Idealize.ShloMosaic.ValueIdx
open Cert.KernelIdeal Cert.KernelIdeal.Gen

/-! ## The layout operations at an index -/

section Layout
variable {α : Type}

/-- A [3, 12, 256, 64] array cast to [3, 1, 12, 256, 64] reads, at (s, u, h, r, d), the operand at (s, h, r, d): the
    two indices have the same row-major position, the unit coordinate being 0. -/
theorem cast_3x12x256x64_unit_apply (x : S3x12x256x64.Idx → α) (hc : S3x12x256x64.ShapeCasts S3x1x12x256x64)
    (s : Fin 3) (u : Fin 1) (h : Fin 12) (r : Fin 256) (d : Fin 64) :
    shapeCast S3x1x12x256x64 x hc (ix5 s u h r d) = x (ix4 s h r d) :=
  shapeCast_apply x hc _ _ (by
    have hu : u.val = 0 := by omega
    rw [Shape.rowMajor_val_four, Shape.rowMajor_val_five]
    show ((s.val * 12 + h.val) * 256 + r.val) * 64 + d.val = ((((s.val * 1 + u.val) * 12 + h.val) * 256 + r.val) * 64 + d.val)
    rw [hu]; omega)

/-- A [256, 3, 12, 64] array with its axes permuted by [1, 2, 0, 3] reads, at (s, h, r, d), the operand at (r, s, h, d). -/
theorem transpose_1203_apply (x : S256x3x12x64.Idx → α) (ht : S256x3x12x64.Transposes [1, 2, 0, 3] S3x12x256x64)
    (s : Fin 3) (h : Fin 12) (r : Fin 256) (d : Fin 64) :
    transpose S3x12x256x64 [1, 2, 0, 3] x ht (ix4 s h r d) = x (ix4 r s h d) :=
  transpose_apply _ x ht _ _ fun c => match c with | ⟨0, _⟩ => rfl | ⟨1, _⟩ => rfl | ⟨2, _⟩ => rfl | ⟨3, _⟩ => rfl

/-- A [256, 2304] array cast to [256, 3, 12, 64] reads, at (r, s, h, d), the operand at (r, s·768 + h·64 + d). -/
theorem cast_256x2304_split_apply (x : S256x2304.Idx → α) (hc : S256x2304.ShapeCasts S256x3x12x64)
    (r : Fin 256) (s : Fin 3) (h : Fin 12) (d : Fin 64) :
    shapeCast S256x3x12x64 x hc (ix4 r s h d) = x (ix2 r (Cert.Attn.col s h d)) :=
  shapeCast_apply x hc _ _ (by
    rw [Shape.rowMajor_val_two, Shape.rowMajor_val_four]
    show r.val * 2304 + (s.val * 768 + h.val * 64 + d.val) = ((r.val * 3 + s.val) * 12 + h.val) * 64 + d.val
    omega)

end Layout

/-! ## The block product at an index -/

theorem lhs_0 (i : S256x2304.Idx) (q : dot_S256x768_S2304x768_S256x2304_1_1_0_0_n_n.contr.Idx) : (dot_S256x768_S2304x768_S256x2304_1_1_0_0_n_n.lhsIdx i q 0).val = (i 0).val := by
  unfold DotDims.lhsIdx
  rw [dif_neg (show ¬(0 : Fin S256x768.rank) ∈ dot_S256x768_S2304x768_S256x2304_1_1_0_0_n_n.lhsBatch by decide), dif_pos (show (0 : Fin S256x768.rank) ∈ dot_S256x768_S2304x768_S256x2304_1_1_0_0_n_n.lhsNonContracting by decide)]
  rfl
theorem lhs_1 (i : S256x2304.Idx) (q : dot_S256x768_S2304x768_S256x2304_1_1_0_0_n_n.contr.Idx) : (dot_S256x768_S2304x768_S256x2304_1_1_0_0_n_n.lhsIdx i q 1).val = (q ⟨0, by decide⟩).val :=
  dot_S256x768_S2304x768_S256x2304_1_1_0_0_n_n.lhsIdx_val_of_single rfl i q
theorem rhs_0 (i : S256x2304.Idx) (q : dot_S256x768_S2304x768_S256x2304_1_1_0_0_n_n.contr.Idx) : (dot_S256x768_S2304x768_S256x2304_1_1_0_0_n_n.rhsIdx i q 0).val = (i 1).val := by
  unfold DotDims.rhsIdx
  rw [dif_neg (show ¬(0 : Fin S2304x768.rank) ∈ dot_S256x768_S2304x768_S256x2304_1_1_0_0_n_n.rhsBatch by decide), dif_pos (show (0 : Fin S2304x768.rank) ∈ dot_S256x768_S2304x768_S256x2304_1_1_0_0_n_n.rhsNonContracting by decide)]
  rfl
theorem rhs_1 (i : S256x2304.Idx) (q : dot_S256x768_S2304x768_S256x2304_1_1_0_0_n_n.contr.Idx) : (dot_S256x768_S2304x768_S256x2304_1_1_0_0_n_n.rhsIdx i q 1).val = (q ⟨0, by decide⟩).val :=
  dot_S256x768_S2304x768_S256x2304_1_1_0_0_n_n.rhsIdx_val_of_single rfl i q

/-- The product of a [256, 768] block by a [2304, 768] one contracting their second axes, into zero, reads, at
    (r, c), the sum over k of a[r, k] · b[c, k]: the one-axis contraction index is its coordinate. -/
theorem mm_apply (a : FVec Ideal S256x768 .bf16) (b : FVec Ideal S2304x768 .bf16) (r : Fin 256) (c : Fin 2304) :
    matmul dot_S256x768_S2304x768_S256x2304_1_1_0_0_n_n none a b (constant (F := Ideal) S256x2304 .f32 0x00000000#32) (ix2 r c)
      = ∑ k : Fin 768, a (ix2 r k) * b (ix2 c k) := by
  simp only [matmul]
  rw [Ideal.matmul_constant_zero_apply, ← Equiv.sum_comp (contrEquiv1 dot_S256x768_S2304x768_S256x2304_1_1_0_0_n_n 768 rfl rfl).symm]
  refine Finset.sum_congr rfl fun k _ => ?_
  have hk := contrEquiv1_symm_val dot_S256x768_S2304x768_S256x2304_1_1_0_0_n_n 768 rfl rfl k
  have el : dot_S256x768_S2304x768_S256x2304_1_1_0_0_n_n.lhsIdx (ix2 r c) ((contrEquiv1 dot_S256x768_S2304x768_S256x2304_1_1_0_0_n_n 768 rfl rfl).symm k) = ix2 r k := funext fun ax => Fin.ext (by
    match ax with
    | ⟨0, _⟩ => exact lhs_0 _ _
    | ⟨1, _⟩ => exact (lhs_1 _ _).trans hk)
  have er : dot_S256x768_S2304x768_S256x2304_1_1_0_0_n_n.rhsIdx (ix2 r c) ((contrEquiv1 dot_S256x768_S2304x768_S256x2304_1_1_0_0_n_n 768 rfl rfl).symm k) = ix2 c k := funext fun ax => Fin.ext (by
    match ax with
    | ⟨0, _⟩ => exact rhs_0 _ _
    | ⟨1, _⟩ => exact (rhs_1 _ _).trans hk)
  rw [el, er]

/-! ## The body's value at an index -/

/-- The body's stored value at (s, u, h, r, d), from the three blocks it loads. -/
theorem pay0_apply (x0 : Vec Ideal S1x256x768 .f32) (x1 : Vec Ideal S2304x768 .bf16) (x2 : Vec Ideal S2304 .f32)
    (s : Fin 3) (u : Fin 1) (h : Fin 12) (r : Fin 256) (d : Fin 64) :
    k0_pay1 x0 x1 x2 (ix5 s u h r d)
      = (∑ k : Fin 768, x0 (ix3 (0 : Fin 1) r k) * x1 (ix2 (Cert.Attn.col s h d) k)) + x2 (ix1 (Cert.Attn.col s h d)) := by
  unfold k0_pay1
  refine (cast_3x12x256x64_unit_apply _ _ s u h r d).trans ?_
  refine (transpose_1203_apply _ _ s h r d).trans ?_
  refine (cast_256x2304_split_apply _ _ r s h d).trans ?_
  -- the rounding is the identity; the sum of the product and the bias row, entry by entry
  show matmul dot_S256x768_S2304x768_S256x2304_1_1_0_0_n_n none _ _ (constant (F := Ideal) S256x2304 .f32 0x00000000#32) (ix2 r (Cert.Attn.col s h d))
      + broadcastTo S256x2304 _ broadcasts_S1x2304_S256x2304 (ix2 r (Cert.Attn.col s h d)) = _
  rw [mm_apply, broadcastTo_1b_ab_apply, shapeCast_a_1a_apply]
  refine congrArg (· + x2 (ix1 (Cert.Attn.col s h d))) (Finset.sum_congr rfl fun k _ => ?_)
  -- the rounding of the activations is the identity; their block's leading unit axis; the weights' cast is trivial
  show shapeCast S256x768 x0 shapeCasts_S1x256x768_S256x768 (ix2 r k) * shapeCast S2304x768 x1 shapeCasts_S2304x768_S2304x768 (ix2 (Cert.Attn.col s h d) k) = _
  rw [shapeCast_1ab_ab_apply, shapeCast_self]

end Cert.KernelIdeal.Val0

end
-- ==== Proof.IdealVal0.lean ====
/-
  Region 0's output array after its last point, over the extended reals: the fused projection of the spec.

  The grid is 8 × 4: point t = (b, q) handles batch b and the rows q·256 … q·256 + 255. There the activations' block
  is x[b, q·256 + r, k] (r < 256), the weights' and the bias' blocks are the whole arrays, and the output's block is
  the [3, 1, 12, 256, 64] box of the [3, 8, 12, 1024, 64] array at (s, b, h, q·256 + r, d). By the body's value at an
  index, what point t writes back is that box of `qkv x w bq`; every index of the array lies in the box of the point
  (its batch, its row / 256); so the array ends as `qkv x w bq`.
-/
import proofs.«109183_j33913061769280_2_alg».proof.Proof.IdealR0
import proofs.«109183_j33913061769280_2_alg».proof.Proof.IdealPay0
import proofs.«109183_j33913061769280_2_alg».proof.Proof.Spec
import Idealize.ShloMosaic.Lib.Pipeline.Value

noncomputable section

namespace Cert.KernelIdeal.Val0

open Cert.KernelIdeal Cert.KernelIdeal.Gen Idealize.ShloMosaic Idealize.ShloMosaic.TcCoe Idealize.SL.Sem
open Idealize.ShloMosaic.ValueIdx
open Idealize.ShloMosaic.Pipeline (Dat)

-- the core's buffer contents when the region is entered
variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- The index maps over the grid: the activations' block moves with the output's (its batch with the output's
    axis 1, its row block with the output's axis 3), every other block index is zero, and the output's two moving
    block indices stay below 8 and 4. -/
theorem idx_facts0 : ∀ t : Fin cfg0.N,
    win0_0.index t (0 : Fin 3) = win0_3.index t (1 : Fin 5)
    ∧ win0_0.index t (1 : Fin 3) = win0_3.index t (3 : Fin 5)
    ∧ win0_0.index t (2 : Fin 3) = 0
    ∧ win0_1.index t (0 : Fin 2) = 0 ∧ win0_1.index t (1 : Fin 2) = 0
    ∧ win0_2.index t (0 : Fin 1) = 0
    ∧ win0_3.index t (0 : Fin 5) = 0 ∧ win0_3.index t (2 : Fin 5) = 0 ∧ win0_3.index t (4 : Fin 5) = 0
    ∧ win0_3.index t (1 : Fin 5) ≤ 7 ∧ win0_3.index t (3 : Fin 5) ≤ 3 :=
  (by decide +kernel : ∀ t : Fin grid0.N, _)

/-- Every (batch, row block) is some point's. -/
theorem idx_onto0 : ∀ (b : Fin 8) (q : Fin 4), ∃ t : Fin cfg0.N, win0_3.index t = ![0, b.val, 0, q.val, 0] :=
  (by decide +kernel : ∀ (b : Fin 8) (q : Fin 4), ∃ t : Fin grid0.N, win0_3.index t = ![0, b.val, 0, q.val, 0])

/-- What point `t` writes back is block `t` of the fused projection of the arrays as the region finds them. -/
theorem flushed3_eq (c : Dev nD) (t : Fin cfg0.N) :
    (R0.dat0 V c).flushed 3 t
      = ((cfg0.win 3).blk t).view.read (Elt Ideal) (Cert.Attn.qkv (V c main_arg0) (V c main_v0) (V c main_arg2)) := by
  show (cfg0.win 3).cut (grid0.coords t) ((R0.dat0 V c).after 3 t) = _
  rw [R0.after0_3]
  unfold R0.out0_3
  rw [View.canon_unit_zero hz5]
  simp only [View.ld_unit_zero (S := S1x256x768) hz3, View.ld_unit_zero (S := S2304x768) hz2, View.ld_unit_zero (S := S2304) hz1]
  obtain ⟨e0, e1, e2, e3, e4, e5, e6, e7, e8, e9, e10⟩ := idx_facts0 t
  funext j
  obtain ⟨s, u, h, r, d, rfl⟩ : ∃ (s : Fin 3) (u : Fin 1) (h : Fin 12) (r : Fin 256) (d : Fin 64), j = ix5 s u h r d :=
    ⟨j 0, j 1, j 2, j 3, j 4, eq_ix5 j⟩
  have hu : u.val = 0 := by omega
  -- the output's block element (s, u, h, r, d) sits in the array at (s, b, h, q·256 + r, d)
  have hemb : ((cfg0.win 3).blk t).view.emb (ix5 s u h r d)
      = ix5 s (⟨win0_3.index t (1 : Fin 5), by omega⟩ : Fin 8) h (⟨win0_3.index t (3 : Fin 5) * 256 + r.val, by omega⟩ : Fin 1024) d := by
    funext a; apply Fin.ext
    match a with
    | ⟨0, _⟩ => show win0_3.index t (0 : Fin 5) * 3 + 1 * s.val = s.val; omega
    | ⟨1, _⟩ => show win0_3.index t (1 : Fin 5) * 1 + 1 * u.val = win0_3.index t (1 : Fin 5); omega
    | ⟨2, _⟩ => show win0_3.index t (2 : Fin 5) * 12 + 1 * h.val = h.val; omega
    | ⟨3, _⟩ => show win0_3.index t (3 : Fin 5) * 256 + 1 * r.val = win0_3.index t (3 : Fin 5) * 256 + r.val; omega
    | ⟨4, _⟩ => show win0_3.index t (4 : Fin 5) * 64 + 1 * d.val = d.val; omega
  show k0_pay1 (R0.iblk0 V c 0 t) (R0.iblk0 V c 1 t) (R0.iblk0 V c 2 t) (ix5 s u h r d)
      = Cert.Attn.qkv (V c main_arg0) (V c main_v0) (V c main_arg2) (((cfg0.win 3).blk t).view.emb (ix5 s u h r d))
  rw [hemb, Cert.Attn.qkv_ix5]
  unfold Cert.Attn.qkvAt
  refine (pay0_apply _ _ _ s u h r d).trans ?_
  refine congrArg₂ (· + ·) (Finset.sum_congr rfl fun k _ => congrArg₂ (· * ·) ?_ ?_) ?_
  · -- the activations' block element (0, r, k) sits in the array at (b, q·256 + r, k)
    show V c main_arg0 (((cfg0.win 0).blk t).view.emb (ix3 (0 : Fin 1) r k)) = V c main_arg0 _
    refine congrArg (V c main_arg0) (funext fun a => Fin.ext ?_)
    match a with
    | ⟨0, _⟩ => show win0_0.index t (0 : Fin 3) * 1 + 1 * 0 = win0_3.index t (1 : Fin 5); omega
    | ⟨1, _⟩ => show win0_0.index t (1 : Fin 3) * 256 + 1 * r.val = win0_3.index t (3 : Fin 5) * 256 + r.val; omega
    | ⟨2, _⟩ => show win0_0.index t (2 : Fin 3) * 768 + 1 * k.val = k.val; omega
  · -- the weights' block is the whole array
    show V c main_v0 (((cfg0.win 1).blk t).view.emb (ix2 (Cert.Attn.col s h d) k)) = V c main_v0 _
    refine congrArg (V c main_v0) (funext fun a => Fin.ext ?_)
    match a with
    | ⟨0, _⟩ => show win0_1.index t (0 : Fin 2) * 2304 + 1 * (Cert.Attn.col s h d).val = (Cert.Attn.col s h d).val; omega
    | ⟨1, _⟩ => show win0_1.index t (1 : Fin 2) * 768 + 1 * k.val = k.val; omega
  · -- the bias' block is the whole array
    show V c main_arg2 (((cfg0.win 2).blk t).view.emb (ix1 (Cert.Attn.col s h d))) = V c main_arg2 _
    refine congrArg (V c main_arg2) (funext fun a => Fin.ext ?_)
    match a with
    | ⟨0, _⟩ => show win0_2.index t (0 : Fin 1) * 2304 + 1 * (Cert.Attn.col s h d).val = (Cert.Attn.col s h d).val; omega

/-- An index of the array is in point `t`'s block iff each coordinate is in the block's range on its axis. -/
theorem mem_blk3 (t : Fin cfg0.N) (i : S3x8x12x1024x64.Idx) :
    i ∈ ((cfg0.win 3).blk t).view.set ↔ ∀ a : Fin 5, win0_3.index t a * S3x1x12x256x64.size a ≤ (i a).val ∧ (i a).val < win0_3.index t a * S3x1x12x256x64.size a + S3x1x12x256x64.size a := by
  show i ∈ ((View.whole main_v4).slice (win0_3.rect t)).set ↔ _
  rw [View.set_slice_whole, Rect.mem_set_unit]
  exact Iff.rfl

/-- Every index of the array is in the block of the point of its batch and its row block. -/
theorem cover3 (i : S3x8x12x1024x64.Idx) : ∃ t : Fin cfg0.N, (cfg0.win 3).flush t = true ∧ i ∈ ((cfg0.win 3).blk t).view.set := by
  have hi0 : (i 0).val < 3 := (i 0).isLt
  have hi1 : (i 1).val < 8 := (i 1).isLt
  have hi2 : (i 2).val < 12 := (i 2).isLt
  have hi3 : (i 3).val < 1024 := (i 3).isLt
  have hi4 : (i 4).val < 64 := (i 4).isLt
  obtain ⟨t, ht⟩ := idx_onto0 ⟨(i 1).val, hi1⟩ ⟨(i 3).val / 256, by omega⟩
  have q0 : win0_3.index t (0 : Fin 5) = 0 := congrFun ht 0
  have q1 : win0_3.index t (1 : Fin 5) = (i 1).val := congrFun ht 1
  have q2 : win0_3.index t (2 : Fin 5) = 0 := congrFun ht 2
  have q3 : win0_3.index t (3 : Fin 5) = (i 3).val / 256 := congrFun ht 3
  have q4 : win0_3.index t (4 : Fin 5) = 0 := congrFun ht 4
  refine ⟨t, flush0_3 t, ?_⟩
  rw [mem_blk3]
  intro a
  match a with
  | ⟨0, _⟩ => show win0_3.index t (0 : Fin 5) * 3 ≤ (i 0).val ∧ (i 0).val < win0_3.index t (0 : Fin 5) * 3 + 3; omega
  | ⟨1, _⟩ => show win0_3.index t (1 : Fin 5) * 1 ≤ (i 1).val ∧ (i 1).val < win0_3.index t (1 : Fin 5) * 1 + 1; omega
  | ⟨2, _⟩ => show win0_3.index t (2 : Fin 5) * 12 ≤ (i 2).val ∧ (i 2).val < win0_3.index t (2 : Fin 5) * 12 + 12; omega
  | ⟨3, _⟩ => show win0_3.index t (3 : Fin 5) * 256 ≤ (i 3).val ∧ (i 3).val < win0_3.index t (3 : Fin 5) * 256 + 256; omega
  | ⟨4, _⟩ => show win0_3.index t (4 : Fin 5) * 64 ≤ (i 4).val ∧ (i 4).val < win0_3.index t (4 : Fin 5) * 64 + 64; omega

/-- The output array after the region: the fused projection of the arrays as the region finds them. -/
theorem final4 (c : Dev nD) :
    (R0.dat0 V c).arrAt 3 cfg0.N = Cert.Attn.qkv (V c main_arg0) (V c main_v0) (V c main_arg2) :=
  (R0.dat0 V c).arrAt_eq_of_cover 3 (Cert.Attn.qkv (V c main_arg0) (V c main_v0) (V c main_arg2)) (fun t _ => flushed3_eq V c t) cover3

end Cert.KernelIdeal.Val0

end
-- ==== Proof.IdealVal1Pieces.lean ====
/-
  What each case of region 1's body leaves, as values of the payloads.

  The three role blocks of the [3, 1, 1, 1024, 64] operand are its boxes at role 0, 1, 2 (queries, keys, values). Each
  case stores, into the scratch, the accumulate step on the point's blocks: from the zero array at the first head
  (the reset is stored first and read back), from what the point before left at the others; at the last head the
  output block is that new accumulator (read back after its store) plus the bias. Point by point, this is the
  recursion the induction over the points runs on.
-/
import proofs.«109183_j33913061769280_2_alg».proof.Proof.IdealR1
import Idealize.ShloMosaic.Lib.Pipeline.Value
import Idealize.ShloMosaic.Lib.Tactic

noncomputable section

namespace Cert.KernelIdeal.Val1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The accumulate step on a point's blocks: the queries, keys and values are the operand's boxes at role 0, 1, 2; the
    new accumulator is the old one plus the head's contribution. -/
def stepP (x0 : Vec F S3x1x1x1024x64 .bf16) (x1 : Vec F S1x64x768 .bf16) (acc : Vec F S1024x768 .f32) : Vec F S1024x768 .f32 :=
  k1_pay1 (k1_pay4
    (View.ld x0 (Rect.unit (s := S3x1x1x1024x64) ![0, 0, 0, 0, 0] S1x1x1x1024x64.size inb_S3x1x1x1024x64_S1x1x1x1024x64_0_0_0_0_0))
    (View.ld x0 (Rect.unit (s := S3x1x1x1024x64) ![1, 0, 0, 0, 0] S1x1x1x1024x64.size inb_S3x1x1x1024x64_S1x1x1x1024x64_1_0_0_0_0))
    (View.ld x0 (Rect.unit (s := S3x1x1x1024x64) ![2, 0, 0, 0, 0] S1x1x1x1024x64.size inb_S3x1x1x1024x64_S1x1x1x1024x64_2_0_0_0_0))
    x1 acc)

/-- The first head's case leaves in the scratch the step from the zero array. -/
theorem sout_A (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : R1.cond1_0 i) (hc1 : ¬R1.cond1_1 i) (x0 : Vec F S3x1x1x1024x64 .bf16) (x1 : Vec F S1x64x768 .bf16) (x2 : Vec F S768 .f32) :
    R1.sout1_A_0 c i arg2 harg2 arg3 harg3 arg4 harg4 arg5 harg5 arg6 harg6 hc0 hc1 x0 x1 x2 = stepP x0 x1 k1_pay3 := by
  unfold R1.sout1_A_0
  rw [View.read_writes_eq_canon _ _ _ (R1.scover1_A_0 c i arg2 harg2 arg3 harg3 arg4 harg4 arg5 harg5 arg6 harg6 hc0 hc1 x0 x1 x2)]
  unfold R1.kernelRun1_A
  dsimp only
  sl_unfold_words
  rw [View.canon_cons_unit_zero (S := S1024x768) zeros2, View.readCov_unit_zero (S := S1024x768) _ zeros2]
  unfold stepP
  simp only [View.readAt_eq_ld, harg2.read_unread, harg3.read_unread, harg4.read_unread, harg6.read_unread,
    View.ld_unit_zero (S := S1x64x768) zeros3, View.ld_unit_zero (S := S1024x768) zeros2, View.ld_unit_zero (S := S768) zeros1]

/-- A middle head's case leaves in the scratch the step from what it found there. -/
theorem sout_B (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬R1.cond1_0 i) (hc1 : ¬R1.cond1_1 i) (x0 : Vec F S3x1x1x1024x64 .bf16) (x1 : Vec F S1x64x768 .bf16) (x2 : Vec F S768 .f32) (xs0 : Vec F S1024x768 .f32) :
    R1.sout1_B_0 c i arg2 harg2 arg3 harg3 arg4 harg4 arg5 harg5 arg6 harg6 hc0 hc1 x0 x1 x2 xs0 = stepP x0 x1 xs0 := by
  unfold R1.sout1_B_0
  rw [View.read_writes_eq_canon _ _ _ (R1.scover1_B_0 c i arg2 harg2 arg3 harg3 arg4 harg4 arg5 harg5 arg6 harg6 hc0 hc1 x0 x1 x2 xs0)]
  unfold R1.kernelRun1_B
  dsimp only
  sl_unfold_words
  rw [View.canon_unit_zero zeros2]
  unfold stepP
  simp only [View.readAt_eq_ld, harg2.read_unread, harg3.read_unread, harg4.read_unread, harg6.read_unread,
    View.ld_unit_zero (S := S1x64x768) zeros3, View.ld_unit_zero (S := S1024x768) zeros2, View.ld_unit_zero (S := S768) zeros1]

/-- The last head's case leaves in the scratch the step from what it found there. -/
theorem sout_C (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬R1.cond1_0 i) (hc1 : R1.cond1_1 i) (x0 : Vec F S3x1x1x1024x64 .bf16) (x1 : Vec F S1x64x768 .bf16) (x2 : Vec F S768 .f32) (xs0 : Vec F S1024x768 .f32) :
    R1.sout1_C_0 c i arg2 harg2 arg3 harg3 arg4 harg4 arg5 harg5 arg6 harg6 hc0 hc1 x0 x1 x2 xs0 = stepP x0 x1 xs0 := by
  unfold R1.sout1_C_0
  rw [View.read_writes_eq_canon _ _ _ (R1.scover1_C_0 c i arg2 harg2 arg3 harg3 arg4 harg4 arg5 harg5 arg6 harg6 hc0 hc1 x0 x1 x2 xs0)]
  unfold R1.kernelRun1_C
  dsimp only
  sl_unfold_words
  rw [View.canon_unit_zero zeros2]
  unfold stepP
  simp only [View.readAt_eq_ld, harg2.read_unread, harg3.read_unread, harg4.read_unread, harg6.read_unread,
    View.ld_unit_zero (S := S1x64x768) zeros3, View.ld_unit_zero (S := S1024x768) zeros2, View.ld_unit_zero (S := S768) zeros1]

/-- The last head's case leaves in the output block the new accumulator plus the bias. -/
theorem out_C (c : Dev nD) (i : grid1.Coords) (arg2 : Memref sig .tc .vmem S3x1x1x1024x64 .bf16) (harg2 : arg2.IsWhole) (arg3 : Memref sig .tc .vmem S1x64x768 .bf16) (harg3 : arg3.IsWhole) (arg4 : Memref sig .tc .vmem S768 .f32) (harg4 : arg4.IsWhole) (arg5 : Memref sig .tc .vmem S1x1024x768 .f32) (harg5 : arg5.IsWhole) (arg6 : Memref sig .tc .vmem S1024x768 .f32) (harg6 : arg6.IsWhole) (hc0 : ¬R1.cond1_0 i) (hc1 : R1.cond1_1 i) (x0 : Vec F S3x1x1x1024x64 .bf16) (x1 : Vec F S1x64x768 .bf16) (x2 : Vec F S768 .f32) (xs0 : Vec F S1024x768 .f32) :
    R1.out1_C_3 c i arg2 harg2 arg3 harg3 arg4 harg4 arg5 harg5 arg6 harg6 hc0 hc1 x0 x1 x2 xs0 = k1_pay2 (stepP x0 x1 xs0) x2 := by
  unfold R1.out1_C_3
  rw [View.read_writes_eq_canon _ _ _ (R1.cover1_C_3 c i arg2 harg2 arg3 harg3 arg4 harg4 arg5 harg5 arg6 harg6 hc0 hc1 x0 x1 x2 xs0)]
  unfold R1.kernelRun1_C
  dsimp only
  sl_unfold_words
  rw [View.canon_unit_zero zeros3, View.readCov_unit_zero (S := S1024x768) _ zeros2]
  unfold stepP
  simp only [View.readAt_eq_ld, harg2.read_unread, harg3.read_unread, harg4.read_unread, harg6.read_unread,
    View.ld_unit_zero (S := S1x64x768) zeros3, View.ld_unit_zero (S := S1024x768) zeros2, View.ld_unit_zero (S := S768) zeros1]

/-! ## Point by point -/

/-- The components of a pair that is a given pair. -/
theorem fst_of_eq {α β : Type} {p : α × β} {a : α} {b : β} (h : p = (a, b)) : p.1 = a := by subst h; rfl
theorem snd_of_eq {α β : Type} {p : α × β} {a : α} {b : β} (h : p = (a, b)) : p.2 = b := by subst h; rfl

variable (V : (c : Dev nD) → (b : Ref sig .tc) → Buf (Elt F) ((c : Thread nD τ).loc b))

/-- After a point of the first head the scratch holds the step from the zero array. -/
theorem scratch_first (c : Dev nD) (t : Fin cfg1.N) (h0 : t.val % 12 = 0) :
    (R1.outsAt1 V c t.val t.isLt).2 = stepP (R1.iblk1 V c 0 t) (R1.iblk1 V c 1 t) k1_pay3 := by
  have h1 : ¬t.val % 12 = 11 := by omega
  have key := sout_A c (grid1.coords t) (R1.ms1_0 t) (R1.hs1_0 t) (R1.ms1_1 t) (R1.hs1_1 t) (R1.ms1_2 t) (R1.hs1_2 t) (R1.ms1_3 t) (R1.hs1_3 t) R1.scM1_0 (Memref.isWhole_whole _) ((R1.hcond1_0 t).mpr h0) (fun h => h1 ((R1.hcond1_1 t).mp h)) (R1.iblk1 V c 0 t) (R1.iblk1 V c 1 t) (R1.iblk1 V c 2 t)
  exact (snd_of_eq (R1.outsAt1_A V c t h0 h1)).trans key

/-- After a point of a later head the scratch holds the step from what the point before left. -/
theorem scratch_later (c : Dev nD) (t : Fin cfg1.N) (h0 : ¬t.val % 12 = 0) :
    (R1.outsAt1 V c t.val t.isLt).2 = stepP (R1.iblk1 V c 0 t) (R1.iblk1 V c 1 t) (R1.outsAt1 V c (t.val - 1) (Nat.lt_of_le_of_lt (Nat.sub_le _ _) t.isLt)).2 := by
  by_cases h1 : t.val % 12 = 11
  · have key := sout_C c (grid1.coords t) (R1.ms1_0 t) (R1.hs1_0 t) (R1.ms1_1 t) (R1.hs1_1 t) (R1.ms1_2 t) (R1.hs1_2 t) (R1.ms1_3 t) (R1.hs1_3 t) R1.scM1_0 (Memref.isWhole_whole _) (fun h => h0 ((R1.hcond1_0 t).mp h)) ((R1.hcond1_1 t).mpr h1) (R1.iblk1 V c 0 t) (R1.iblk1 V c 1 t) (R1.iblk1 V c 2 t) (R1.outsAt1 V c (t.val - 1) (Nat.lt_of_le_of_lt (Nat.sub_le _ _) t.isLt)).2
    exact (snd_of_eq (R1.outsAt1_C V c t h0 h1)).trans key
  · have key := sout_B c (grid1.coords t) (R1.ms1_0 t) (R1.hs1_0 t) (R1.ms1_1 t) (R1.hs1_1 t) (R1.ms1_2 t) (R1.hs1_2 t) (R1.ms1_3 t) (R1.hs1_3 t) R1.scM1_0 (Memref.isWhole_whole _) (fun h => h0 ((R1.hcond1_0 t).mp h)) (fun h => h1 ((R1.hcond1_1 t).mp h)) (R1.iblk1 V c 0 t) (R1.iblk1 V c 1 t) (R1.iblk1 V c 2 t) (R1.outsAt1 V c (t.val - 1) (Nat.lt_of_le_of_lt (Nat.sub_le _ _) t.isLt)).2
    exact (snd_of_eq (R1.outsAt1_B V c t h0 h1)).trans key

/-- After a point of the last head the output block holds the new accumulator plus the bias block. -/
theorem out_last (c : Dev nD) (t : Fin cfg1.N) (h1 : t.val % 12 = 11) :
    (R1.outsAt1 V c t.val t.isLt).1
      = k1_pay2 (stepP (R1.iblk1 V c 0 t) (R1.iblk1 V c 1 t) (R1.outsAt1 V c (t.val - 1) (Nat.lt_of_le_of_lt (Nat.sub_le _ _) t.isLt)).2) (R1.iblk1 V c 2 t) := by
  have h0 : ¬t.val % 12 = 0 := by omega
  have key := out_C c (grid1.coords t) (R1.ms1_0 t) (R1.hs1_0 t) (R1.ms1_1 t) (R1.hs1_1 t) (R1.ms1_2 t) (R1.hs1_2 t) (R1.ms1_3 t) (R1.hs1_3 t) R1.scM1_0 (Memref.isWhole_whole _) (fun h => h0 ((R1.hcond1_0 t).mp h)) ((R1.hcond1_1 t).mpr h1) (R1.iblk1 V c 0 t) (R1.iblk1 V c 1 t) (R1.iblk1 V c 2 t) (R1.outsAt1 V c (t.val - 1) (Nat.lt_of_le_of_lt (Nat.sub_le _ _) t.isLt)).2
  exact (fst_of_eq (R1.outsAt1_C V c t h0 h1)).trans key

end Cert.KernelIdeal.Val1

end
-- ==== Proof.IdealPay1A.lean ====
/-
  Region 1's three small payloads read at an index, at the ideal values.

  The reset value is the zero array; the value the accumulator keeps is the value it was given (a shape cast to the
  same shape); the output block is the accumulator plus the bias row, the bias [768] read as one row [1, 768] repeated
  over the 1024 rows, the result given a leading unit axis.
-/
import proofs.«109183_j33913061769280_2_alg».proof.Proof.Gen.KernelIdeal.Skeleton
import Idealize.ShloMosaic.Lib.ValueLayout
import Idealize.ShloMosaic.PureOps.Ideal.Laws

noncomputable section

namespace Cert.KernelIdeal.Val1

open Idealize.ShloMosaic Idealize.ShloMosaic.ValueIdx
open Cert.KernelIdeal Cert.KernelIdeal.Gen

/-- The reset value is zero at every entry. -/
theorem pay3_apply (t : Fin 1024) (e : Fin 768) : k1_pay3 (F := Ideal) (ix2 t e) = 0 := by
  unfold k1_pay3
  rw [shapeCast_self]
  exact Ideal.ofBits_zero_f32

/-- The value the accumulator keeps is the value it was given. -/
theorem pay1_apply (v : FVec Ideal S1024x768 .f32) (t : Fin 1024) (e : Fin 768) :
    k1_pay1 (F := Ideal) v (ix2 t e) = v (ix2 t e) := by
  unfold k1_pay1
  rw [shapeCast_self]

/-- The output block at (0, t, e) is the accumulator at (t, e) plus the bias at e. -/
theorem pay2_apply (v35 : Vec Ideal S1024x768 .f32) (v36 : Vec Ideal S768 .f32) (t : Fin 1024) (e : Fin 768) :
    k1_pay2 (F := Ideal) v35 v36 (ix3 (0 : Fin 1) t e) = v35 (ix2 t e) + v36 (ix1 e) := by
  unfold k1_pay2
  refine (shapeCast_ab_1ab_apply _ shapeCasts_S1024x768_S1x1024x768 (0 : Fin 1) t e).trans ?_
  rw [addf_apply]
  refine congrArg (v35 (ix2 t e) + ·) ?_
  refine (broadcastTo_1b_ab_apply _ broadcasts_S1x768_S1024x768 t e).trans ?_
  exact shapeCast_a_1a_apply v36 shapeCasts_S768_S1x768 (0 : Fin 1) e

end Cert.KernelIdeal.Val1

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.IdealPay1Dot.lean ====
/-
  The three matrix products of region 1 read at an entry, on the extended reals, and the block's unit axes dropped.

  • scores: queries [1024, 64] against keys [1024, 64], both contracted on the lane axis: entry (t, u) is
    the sum over d of q (t, d) · k (u, d);
  • weighted values: weights [1024, 1024] times values [1024, 64]: entry (t, d) is the sum over u of p (t, u) · v (u, d);
  • projection: heads' rows [1024, 64] times the head's slice [64, 768] of the projection: entry (t, e) is the sum over d
    of a (t, d) · w (d, e).
  Each accumulates into the zero array, which adds nothing. A block [1, 1, 1, 1024, 64] viewed as the matrix [1024, 64]
  reads (0, 0, 0, t, d) at (t, d).
-/
import proofs.«109183_j33913061769280_2_alg».proof.Proof.Gen.KernelIdeal.Skeleton
import proofs.«109183_j33913061769280_2_alg».proof.Proof.LibPlainDot
import Idealize.ShloMosaic.Lib.ValueLayout

noncomputable section

namespace Cert.KernelIdeal.Val1

open Idealize.ShloMosaic Idealize.ShloMosaic.ValueIdx
open Cert.KernelIdeal Cert.KernelIdeal.Gen

/-- The scores' left operand is read on its row axis at the entry's row. -/
theorem qk_lhs_row (j : S1024x1024.Idx) (q : dot_S1024x64_S1024x64_S1024x1024_1_1_0_0_n_n.contr.Idx) :
    (dot_S1024x64_S1024x64_S1024x1024_1_1_0_0_n_n.lhsIdx j q 0).val = (j 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl

/-- The scores' right operand is read on its row axis at the entry's column. -/
theorem qk_rhs_row (j : S1024x1024.Idx) (q : dot_S1024x64_S1024x64_S1024x1024_1_1_0_0_n_n.contr.Idx) :
    (dot_S1024x64_S1024x64_S1024x1024_1_1_0_0_n_n.rhsIdx j q 0).val = (j 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl

/-- Scores: entry (t, u) of queries against keys is the sum over the 64 lanes of q (t, d) · k (u, d). -/
theorem qk_apply (l r : FVec Ideal S1024x64 .bf16) (t u : Fin 1024) :
    matmul dot_S1024x64_S1024x64_S1024x1024_1_1_0_0_n_n none l r (constant (F := Ideal) S1024x1024 .f32 0x00000000#32) (ix2 t u)
      = ∑ d : Fin 64, l (ix2 t d) * r (ix2 u d) := by
  simp only [matmul]
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 t u) ((contrEquiv1 dot_S1024x64_S1024x64_S1024x1024_1_1_0_0_n_n 64 rfl rfl).symm k) = ix2 t k :=
    funext fun a => Fin.ext (by
      match a with
      | ⟨0, _⟩ => exact qk_lhs_row _ _
      | ⟨1, _⟩ => exact (dot_S1024x64_S1024x64_S1024x1024_1_1_0_0_n_n.lhsIdx_val_of_single rfl _ _).trans hk)
  have er : dot_S1024x64_S1024x64_S1024x1024_1_1_0_0_n_n.rhsIdx (ix2 t u) ((contrEquiv1 dot_S1024x64_S1024x64_S1024x1024_1_1_0_0_n_n 64 rfl rfl).symm k) = ix2 u k :=
    funext fun a => Fin.ext (by
      match a with
      | ⟨0, _⟩ => exact qk_rhs_row _ _
      | ⟨1, _⟩ => exact (dot_S1024x64_S1024x64_S1024x1024_1_1_0_0_n_n.rhsIdx_val_of_single rfl _ _).trans hk)
  rw [el, er]

/-- Weighted values: entry (t, d) of weights times values is the sum over the 1024 keys of p (t, u) · v (u, d). -/
theorem pv_apply (l : FVec Ideal S1024x1024 .bf16) (r : FVec Ideal S1024x64 .bf16) (t : Fin 1024) (d : Fin 64) :
    matmul dot_S1024x1024_S1024x64_S1024x64_1_0_0_1_n_n none l r (constant (F := Ideal) S1024x64 .f32 0x00000000#32) (ix2 t d)
      = ∑ u : Fin 1024, l (ix2 t u) * r (ix2 u d) :=
  PlainDot.matmul_zero_apply dot_S1024x1024_S1024x64_S1024x64_1_0_0_1_n_n rfl none l r (ix2 t d)

/-- Projection: entry (t, e) of a head's rows times its slice of the projection is the sum over the 64 lanes of
    a (t, d) · w (d, e). -/
theorem proj_apply (l : FVec Ideal S1024x64 .bf16) (r : FVec Ideal S64x768 .bf16) (t : Fin 1024) (e : Fin 768) :
    matmul dot_S1024x64_S64x768_S1024x768_1_0_0_1_n_n none l r (constant (F := Ideal) S1024x768 .f32 0x00000000#32) (ix2 t e)
      = ∑ d : Fin 64, l (ix2 t d) * r (ix2 d e) :=
  PlainDot.matmul_zero_apply dot_S1024x64_S64x768_S1024x768_1_0_0_1_n_n rfl none l r (ix2 t e)

/-- A block [1, 1, 1, 1024, 64] viewed as the matrix [1024, 64] reads (0, 0, 0, t, d) at (t, d). -/
theorem cast5_apply {α : Type} (x : S1x1x1x1024x64.Idx → α) (t : Fin 1024) (d : Fin 64) :
    shapeCast S1024x64 x shapeCasts_S1x1x1x1024x64_S1024x64 (ix2 t d)
      = x (ix5 (0 : Fin 1) (0 : Fin 1) (0 : Fin 1) t d) :=
  shapeCast_apply x shapeCasts_S1x1x1x1024x64_S1024x64 _ _ (by
    rw [Shape.rowMajor_val_five, Shape.rowMajor_val_two]
    show ((((0 * 1 + 0) * 1 + 0) * 1024 + t.val) * 64 + d.val) = t.val * 64 + d.val
    simp only [Nat.zero_mul, Nat.zero_add, Nat.mul_one, Nat.add_zero])

end Cert.KernelIdeal.Val1

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibRowMax.lean ====
/-
  GENERAL LEMMA: the largest entry of each row of a rank-2 array — what `max(x, axis=-1)` becomes in a vector
  program — read at an index given by coordinates.
  • `multiReduction_maximumf_axis1_apply`: the lane maximum of an `[a, b]` array of extended reals, folded from the
    accumulator's word, at `i`, is the maximum over `k` of the entries `(i, k)` of row `i`, folded from that word's value.
-/
import Idealize.ShloMosaic.Lib.ValueIdx
import Idealize.ShloMosaic.PureOps.Ideal.Laws

noncomputable section

namespace Idealize.ShloMosaic.ValueIdx

open Idealize.ShloMosaic

/-- The lane maximum of an `[a, b]` array of extended reals: at `i` it is the fold of `max`, from the accumulator word's
    value, over the entries of row `i`. -/
theorem multiReduction_maximumf_axis1_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  refine congrArg (fun f => Finset.fold max (Ideal.ofBits .f32 acc) f (Finset.univ : Finset (Fin b))) (funext fun k => congrArg src ?_)
  funext c
  match c with
  | ⟨0, _⟩ => exact Fin.ext rfl
  | ⟨1, _⟩ => exact Fin.ext rfl

end Idealize.ShloMosaic.ValueIdx

end
-- ==== Proof.IdealPay1Soft.lean ====
/-
  The softmax stage of region 1 read at an entry, on the extended reals, over a variable matrix of scores s [1024, 1024].

  The numerator at (t, u) is exp (s (t, u) − m t), where m t is the largest entry of row t, folded from −∞: the row
  maxima [1024] are kept as a column [1024, 1] and the column is repeated over the 1024 lanes. The weight at (t, u)
  is the numerator divided by the sum of row t's numerators, kept and repeated in the same way.
-/
import proofs.«109183_j33913061769280_2_alg».proof.Proof.Gen.KernelIdeal.Skeleton
import proofs.«109183_j33913061769280_2_alg».proof.Proof.Spec
import proofs.«109183_j33913061769280_2_alg».proof.Proof.LibKeepdims
import proofs.«109183_j33913061769280_2_alg».proof.Proof.LibRowMax

noncomputable section

namespace Cert.KernelIdeal.Val1

open Idealize.ShloMosaic Idealize.ShloMosaic.ValueIdx
open Cert.KernelIdeal Cert.KernelIdeal.Gen

/-- The numerators, as the program spells them from the scores. -/
def numP (s : FVec Ideal S1024x1024 .f32) : FVec Ideal S1024x1024 .f32 :=
  exp (subf s (broadcastTo S1024x1024
    (shapeCast S1024x1 (multiReduction .maximumf [1] S1024 s 0xFF800000#32 reduces_S1024x1024_S1024 (.inl rfl) rfl)
      shapeCasts_S1024_S1024x1) broadcasts_S1024x1_S1024x1024))

/-- The weights, as the program spells them from the numerators. -/
def wgtP (n : FVec Ideal S1024x1024 .f32) : FVec Ideal S1024x1024 .f32 :=
  divf n (broadcastTo S1024x1024
    (shapeCast S1024x1 (multiReduction .add [1] S1024 n 0x00000000#32 reduces_S1024x1024_S1024 (.inl rfl) rfl)
      shapeCasts_S1024_S1024x1) broadcasts_S1024x1_S1024x1024)

/-- The numerator at (t, u): exp of the score less the row's maximum. -/
theorem numP_apply (s : FVec Ideal S1024x1024 .f32) (t u : Fin 1024) :
    numP s (ix2 t u)
      = Ideal.exp (s (ix2 t u) - (Finset.univ : Finset (Fin 1024)).fold max Cert.Attn.ninf (fun k => s (ix2 t k))) := by
  unfold numP
  show Ideal.exp (s (ix2 t u) - _) = _
  refine congrArg (fun m => Ideal.exp (s (ix2 t u) - m)) ?_
  refine (broadcastTo_a1_ab_apply _ broadcasts_S1024x1_S1024x1024 t u).trans ?_
  refine (shapeCast_a_a1_apply _ shapeCasts_S1024_S1024x1 t (0 : Fin 1)).trans ?_
  exact multiReduction_maximumf_axis1_apply s 0xFF800000#32 reduces_S1024x1024_S1024 (.inl rfl) rfl t

/-- The weight at (t, u): the numerator over the sum of the row's numerators. -/
theorem wgtP_apply (n : FVec Ideal S1024x1024 .f32) (t u : Fin 1024) :
    wgtP n (ix2 t u) = Ideal.div (n (ix2 t u)) (∑ k : Fin 1024, n (ix2 t k)) := by
  unfold wgtP
  refine (divf_apply _ _ _).trans ?_
  refine congrArg (Ideal.div (n (ix2 t u))) ?_
  refine (broadcastTo_a1_ab_apply _ broadcasts_S1024x1_S1024x1024 t u).trans ?_
  refine (shapeCast_a_a1_apply _ shapeCasts_S1024_S1024x1 t (0 : Fin 1)).trans ?_
  exact multiReduction_add_axis1_apply n reduces_S1024x1024_S1024 (.inl rfl) rfl t

end Cert.KernelIdeal.Val1

end
-- ==== Proof.IdealPay1B.lean ====
/-
  Region 1's accumulate payload read at an entry, on the extended reals.

  From the block's queries q, keys k and values v (each [1, 1, 1, 1024, 64]), the head's slice w [1, 64, 768] of the
  projection and the accumulator acc [1024, 768]:

    S (t, u)   = (∑_d q (t, d) · k (u, d)) · 1/8
    N (t, u)   = exp (S (t, u) − max over u' of S (t, u'))          (the maximum folded from −∞)
    new (t, e) = acc (t, e) + ∑_d (∑_u N (t, u) / (∑_u' N (t, u')) · v (u, d)) · w (d, e)

  The roundings to the narrow format between the stages are the identity on the extended reals.
-/
import proofs.«109183_j33913061769280_2_alg».proof.Proof.IdealPay1Dot
import proofs.«109183_j33913061769280_2_alg».proof.Proof.IdealPay1Soft

noncomputable section

namespace Cert.KernelIdeal.Val1

open Idealize.ShloMosaic Idealize.ShloMosaic.ValueIdx
open Cert.KernelIdeal Cert.KernelIdeal.Gen

/-- The scaled score of the block's query row t against its key row u. -/
def blkS (v3 v5 : Vec Ideal S1x1x1x1024x64 .bf16) (t u : Fin 1024) : EReal :=
  (∑ d : Fin 64, v3 (ix5 (0 : Fin 1) (0 : Fin 1) (0 : Fin 1) t d) * v5 (ix5 (0 : Fin 1) (0 : Fin 1) (0 : Fin 1) u d))
    * Cert.Attn.scale

/-- The softmax numerator of the block at (t, u): exp of the score less the row's maximum, folded from −∞. -/
def blkN (v3 v5 : Vec Ideal S1x1x1x1024x64 .bf16) (t u : Fin 1024) : EReal :=
  Ideal.exp (blkS v3 v5 t u - (Finset.univ : Finset (Fin 1024)).fold max Cert.Attn.ninf (fun k => blkS v3 v5 t k))

/-- The scaled scores, as the program spells them from the two blocks. -/
def scoreP (v3 v5 : Vec Ideal S1x1x1x1024x64 .bf16) : FVec Ideal S1024x1024 .f32 :=
  mulf (matmul dot_S1024x64_S1024x64_S1024x1024_1_1_0_0_n_n none
      (shapeCast S1024x64 v3 shapeCasts_S1x1x1x1024x64_S1024x64 : FVec Ideal S1024x64 .bf16)
      (shapeCast S1024x64 v5 shapeCasts_S1x1x1x1024x64_S1024x64 : FVec Ideal S1024x64 .bf16)
      (constant (F := Ideal) S1024x1024 .f32 0x00000000#32))
    (broadcast S1024x1024 (Scalar.ofBits (F := Ideal) .f32 0x3E000000#32))

/-- The program's scaled scores at (t, u). -/
theorem scoreP_apply (v3 v5 : Vec Ideal S1x1x1x1024x64 .bf16) (t u : Fin 1024) :
    scoreP v3 v5 (ix2 t u) = blkS v3 v5 t u := by
  unfold scoreP blkS
  refine (mulf_apply _ _ _).trans ?_
  refine congrArg₂ (· * ·) ?_ rfl
  refine (qk_apply _ _ t u).trans ?_
  refine Finset.sum_congr rfl fun d _ => ?_
  exact congrArg₂ (· * ·) (cast5_apply v3 t d) (cast5_apply v5 u d)

/-- The program's numerators at (t, u). -/
theorem numP_scoreP_apply (v3 v5 : Vec Ideal S1x1x1x1024x64 .bf16) (t u : Fin 1024) :
    numP (scoreP v3 v5) (ix2 t u) = blkN v3 v5 t u := by
  rw [numP_apply]
  unfold blkN
  simp only [scoreP_apply]

/-- Rounding to the narrow format is the identity on the extended reals. -/
theorem trunc_bf16_apply {s : Shape} (a : FVec Ideal s .f32) (i : s.Idx) :
    ((truncf .bf16 a bitsLt_bf16_f32 : FVec Ideal s .bf16) i : EReal) = a i := rfl

/-- The accumulate payload at (t, e): the accumulator plus this head's contribution. -/
theorem pay4_apply (v3 v5 v7 : Vec Ideal S1x1x1x1024x64 .bf16) (v23 : Vec Ideal S1x64x768 .bf16)
    (v27 : Vec Ideal S1024x768 .f32) (t : Fin 1024) (e : Fin 768) :
    k1_pay4 (F := Ideal) v3 v5 v7 v23 v27 (ix2 t e)
      = v27 (ix2 t e) + ∑ d : Fin 64,
          (∑ u : Fin 1024, Ideal.div (blkN v3 v5 t u) (∑ u' : Fin 1024, blkN v3 v5 t u')
              * v7 (ix5 (0 : Fin 1) (0 : Fin 1) (0 : Fin 1) u d))
            * v23 (ix3 (0 : Fin 1) d e) := by
  unfold k1_pay4
  refine (addf_apply _ _ _).trans ?_
  refine congrArg (v27 (ix2 t e) + ·) ?_
  refine (proj_apply _ _ t e).trans ?_
  refine Finset.sum_congr rfl fun d _ => ?_
  refine congrArg₂ (· * ·) ?_ (shapeCast_1ab_ab_apply v23 shapeCasts_S1x64x768_S64x768 d e)
  refine (trunc_bf16_apply _ _).trans ?_
  refine (pv_apply _ _ t d).trans ?_
  refine Finset.sum_congr rfl fun u _ => ?_
  refine congrArg₂ (· * ·) ?_ (cast5_apply v7 u d)
  refine (trunc_bf16_apply _ _).trans ?_
  show wgtP (numP (scoreP v3 v5)) (ix2 t u) = _
  rw [wgtP_apply]
  simp only [numP_scoreP_apply]

end Cert.KernelIdeal.Val1

end
-- ==== Proof.IdealPay1Step.lean ====
/-
  One grid point of region 1 in the specification's terms, on the extended reals.

  When the point's blocks are the restrictions of the fused-projection array A [3, 8, 12, 1024, 64] to batch b and head h
  (queries, keys and values: roles 0, 1, 2) and of the by-head projection ph [12, 64, 768] to head h, the accumulate
  step adds part A ph b h to the accumulator; so an accumulator that holds the first h heads' contributions holds the
  first h + 1 afterwards, starting from the zero array at head 0; and the output block is the twelve contributions
  plus the bias.
-/
import proofs.«109183_j33913061769280_2_alg».proof.Proof.IdealPay1A
import proofs.«109183_j33913061769280_2_alg».proof.Proof.IdealPay1B

noncomputable section

namespace Cert.KernelIdeal.Val1

open Idealize.ShloMosaic Idealize.ShloMosaic.ValueIdx
open Cert.KernelIdeal Cert.KernelIdeal.Gen

section
variable (A : Cert.Attn.QKV) (ph : Cert.Attn.PwH) (b : Fin 8) (h : Fin 12)
variable (qb kb vb : Vec Ideal S1x1x1x1024x64 .bf16) (wb : Vec Ideal S1x64x768 .bf16)
variable (hq : ∀ (t : Fin 1024) (d : Fin 64), qb (ix5 (0 : Fin 1) (0 : Fin 1) (0 : Fin 1) t d) = A (ix5 (0 : Fin 3) b h t d))
variable (hk : ∀ (t : Fin 1024) (d : Fin 64), kb (ix5 (0 : Fin 1) (0 : Fin 1) (0 : Fin 1) t d) = A (ix5 (1 : Fin 3) b h t d))
variable (hv : ∀ (t : Fin 1024) (d : Fin 64), vb (ix5 (0 : Fin 1) (0 : Fin 1) (0 : Fin 1) t d) = A (ix5 (2 : Fin 3) b h t d))
variable (hw : ∀ (d : Fin 64) (e : Fin 768), wb (ix3 (0 : Fin 1) d e) = ph (ix3 h d e))

include hq hk in
/-- The block's scaled scores are the specification's at (b, h). -/
theorem blkS_eq (t u : Fin 1024) : blkS qb kb t u = Cert.Attn.score A b h t u := by
  unfold blkS Cert.Attn.score
  simp only [hq, hk]

include hq hk in
/-- The block's numerators are the specification's at (b, h). -/
theorem blkN_eq (t u : Fin 1024) : blkN qb kb t u = Cert.Attn.num A b h t u := by
  unfold blkN Cert.Attn.num Cert.Attn.rowMax
  simp only [blkS_eq A b h qb kb hq hk]

include hq hk hv hw in
/-- The accumulate step adds head h's contribution. -/
theorem pay4_part (acc : Vec Ideal S1024x768 .f32) (t : Fin 1024) (e : Fin 768) :
    k1_pay4 (F := Ideal) qb kb vb wb acc (ix2 t e) = acc (ix2 t e) + Cert.Attn.part A ph b h t e := by
  rw [pay4_apply]
  unfold Cert.Attn.part Cert.Attn.head Cert.Attn.den
  simp only [blkN_eq A b h qb kb hq hk, hv, hw]

include hq hk hv hw in
/-- An accumulator holding the first h contributions holds the first h + 1 after the step. -/
theorem step_next (acc : Vec Ideal S1024x768 .f32)
    (hacc : ∀ (r : Fin 1024) (e : Fin 768), acc (ix2 r e) = Cert.Attn.accum A ph b r e h.val) (r : Fin 1024) (e : Fin 768) :
    k1_pay1 (F := Ideal) (k1_pay4 (F := Ideal) qb kb vb wb acc) (ix2 r e) = Cert.Attn.accum A ph b r e (h.val + 1) := by
  rw [pay1_apply, pay4_part A ph b h qb kb vb wb hq hk hv hw, hacc, Cert.Attn.accum_succ]

include hq hk hv hw in
/-- At head 0 the accumulator is the zero array, and holds the first contribution after the step. -/
theorem step_first (hh : h.val = 0) (r : Fin 1024) (e : Fin 768) :
    k1_pay1 (F := Ideal) (k1_pay4 (F := Ideal) qb kb vb wb (k1_pay3 (F := Ideal))) (ix2 r e)
      = Cert.Attn.accum A ph b r e (h.val + 1) :=
  step_next A ph b h qb kb vb wb hq hk hv hw _ (fun r e => (pay3_apply r e).trans (by rw [hh]; rfl)) r e

end

/-- The output block: the twelve contributions plus the bias. -/
theorem step_out (A : Cert.Attn.QKV) (ph : Cert.Attn.PwH) (pb : Cert.Attn.Pb) (b : Fin 8)
    (acc : Vec Ideal S1024x768 .f32) (bias : Vec Ideal S768 .f32)
    (hacc : ∀ (r : Fin 1024) (e : Fin 768), acc (ix2 r e) = Cert.Attn.accum A ph b r e 12)
    (hb : ∀ e : Fin 768, bias (ix1 e) = pb (ix1 e)) (r : Fin 1024) (e : Fin 768) :
    k1_pay2 (F := Ideal) acc bias (ix3 (0 : Fin 1) r e) = Cert.Attn.outAt A ph pb b r e := by
  rw [pay2_apply, hacc, hb]
  rfl

end Cert.KernelIdeal.Val1

end
-- ==== Proof.IdealVal1Inv.lean ====
/-
  Region 1's accumulator, point by point, in the specification's terms, on the extended reals.

  The grid is 8 × 12: point t handles batch b = t / 12 and head h = t mod 12. There the operand's block is the box
  (role, b, h, ·, ·) of the fused-projection array A [3, 8, 12, 1024, 64], the projection's block is the slice h of the
  by-head projection ph [12, 64, 768], and the bias' block is the whole bias pb [768]. By induction over the points, the
  scratch after point t holds, at (r, e), the first h + 1 heads' contributions to batch b, added one after the other
  from zero; so after a point of the last head the output block holds, at (0, r, e), the twelve contributions plus the
  bias at e: the specification's output at (b, r, e).
-/
import proofs.«109183_j33913061769280_2_alg».proof.Proof.IdealVal1Pieces
import proofs.«109183_j33913061769280_2_alg».proof.Proof.IdealPay1Step
import proofs.«109183_j33913061769280_2_alg».proof.Proof.Spec

noncomputable section

namespace Cert.KernelIdeal.Val1

open Cert.KernelIdeal Cert.KernelIdeal.Gen Idealize.ShloMosaic Idealize.ShloMosaic.TcCoe Idealize.SL.Sem
open Idealize.ShloMosaic.ValueIdx
open Idealize.ShloMosaic.Pipeline (Dat)

/-- The index maps over the grid: the operand's block sits at (0, t / 12, t mod 12, 0, 0), the projection's at
    (t mod 12, 0, 0), the bias' at 0, the output's at (t / 12, 0, 0). -/
theorem idx_facts1 : ∀ t : Fin cfg1.N,
    win1_0.index t (0 : Fin 5) = 0 ∧ win1_0.index t (1 : Fin 5) = t.val / 12 ∧ win1_0.index t (2 : Fin 5) = t.val % 12
    ∧ win1_0.index t (3 : Fin 5) = 0 ∧ win1_0.index t (4 : Fin 5) = 0
    ∧ win1_1.index t (0 : Fin 3) = t.val % 12 ∧ win1_1.index t (1 : Fin 3) = 0 ∧ win1_1.index t (2 : Fin 3) = 0
    ∧ win1_2.index t (0 : Fin 1) = 0
    ∧ win1_3.index t (0 : Fin 3) = t.val / 12 ∧ win1_3.index t (1 : Fin 3) = 0 ∧ win1_3.index t (2 : Fin 3) = 0 :=
  (by decide +kernel : ∀ t : Fin grid1.N, _)

/-- A role box of the operand block reads the block at that role. -/
theorem ld_role (x0 : Vec Ideal S3x1x1x1024x64 .bf16) (s : Fin 3) (off : Fin 5 → Nat) (hoff : off = ![s.val, 0, 0, 0, 0])
    (inb : ∀ a, off a + S1x1x1x1024x64.size a ≤ S3x1x1x1024x64.size a) (r : Fin 1024) (d : Fin 64) :
    View.ld x0 (Rect.unit (s := S3x1x1x1024x64) off S1x1x1x1024x64.size inb) (ix5 (0 : Fin 1) (0 : Fin 1) (0 : Fin 1) r d)
      = x0 (ix5 s (0 : Fin 1) (0 : Fin 1) r d) := by
  subst hoff
  show x0 _ = x0 _
  refine congrArg x0 (funext fun a => Fin.ext ?_)
  match a with
  | ⟨0, _⟩ => show s.val + 1 * 0 = s.val; omega
  | ⟨1, _⟩ => show 0 + 1 * 0 = 0; omega
  | ⟨2, _⟩ => show 0 + 1 * 0 = 0; omega
  | ⟨3, _⟩ => show 0 + 1 * r.val = r.val; omega
  | ⟨4, _⟩ => show 0 + 1 * d.val = d.val; omega

section
variable (A : Cert.Attn.QKV) (ph : Cert.Attn.PwH) (b : Fin 8) (h : Fin 12)
variable (x0 : Vec Ideal S3x1x1x1024x64 .bf16) (x1 : Vec Ideal S1x64x768 .bf16)
variable (hx0 : ∀ (s : Fin 3) (r : Fin 1024) (d : Fin 64), x0 (ix5 s (0 : Fin 1) (0 : Fin 1) r d) = A (ix5 s b h r d))
variable (hx1 : ∀ (d : Fin 64) (e : Fin 768), x1 (ix3 (0 : Fin 1) d e) = ph (ix3 h d e))

include hx0 hx1 in
/-- On blocks that are the restrictions of A and ph to (b, h), the step takes the first h contributions to the first
    h + 1. -/
theorem stepP_at (acc : Vec Ideal S1024x768 .f32)
    (hacc : ∀ (r : Fin 1024) (e : Fin 768), acc (ix2 r e) = Cert.Attn.accum A ph b r e h.val) (r : Fin 1024) (e : Fin 768) :
    stepP x0 x1 acc (ix2 r e) = Cert.Attn.accum A ph b r e (h.val + 1) := by
  unfold stepP
  exact step_next A ph b h _ _ _ x1
    (fun t d => (ld_role x0 (0 : Fin 3) _ rfl _ t d).trans (hx0 0 t d))
    (fun t d => (ld_role x0 (1 : Fin 3) _ rfl _ t d).trans (hx0 1 t d))
    (fun t d => (ld_role x0 (2 : Fin 3) _ rfl _ t d).trans (hx0 2 t d))
    hx1 acc hacc r e

end

-- the core's buffer contents when the region is entered
variable (V : (c : Dev nD) → (b : Ref sig .tc) → Buf (Elt Ideal) ((c : Thread nD τ).loc b))

/-- The operand's block at point t is the box (role, t / 12, t mod 12, ·, ·) of the fused-projection array. -/
theorem blk0_at (c : Dev nD) (t : Fin cfg1.N) (b : Fin 8) (h : Fin 12) (hb : b.val = t.val / 12) (hh : h.val = t.val % 12)
    (s : Fin 3) (r : Fin 1024) (d : Fin 64) :
    R1.iblk1 V c 0 t (ix5 s (0 : Fin 1) (0 : Fin 1) r d) = V c main_v4 (ix5 s b h r d) := by
  obtain ⟨e0, e1, e2, e3, e4, -⟩ := idx_facts1 t
  show V c main_v4 (((cfg1.win 0).blk t).view.emb (ix5 s (0 : Fin 1) (0 : Fin 1) r d)) = V c main_v4 _
  refine congrArg (V c main_v4) (funext fun a => Fin.ext ?_)
  match a with
  | ⟨0, _⟩ => show win1_0.index t (0 : Fin 5) * 3 + 1 * s.val = s.val; omega
  | ⟨1, _⟩ => show win1_0.index t (1 : Fin 5) * 1 + 1 * 0 = b.val; omega
  | ⟨2, _⟩ => show win1_0.index t (2 : Fin 5) * 1 + 1 * 0 = h.val; omega
  | ⟨3, _⟩ => show win1_0.index t (3 : Fin 5) * 1024 + 1 * r.val = r.val; omega
  | ⟨4, _⟩ => show win1_0.index t (4 : Fin 5) * 64 + 1 * d.val = d.val; omega

/-- The projection's block at point t is the slice t mod 12 of the by-head projection. -/
theorem blk1_at (c : Dev nD) (t : Fin cfg1.N) (h : Fin 12) (hh : h.val = t.val % 12) (d : Fin 64) (e : Fin 768) :
    R1.iblk1 V c 1 t (ix3 (0 : Fin 1) d e) = V c main_v3 (ix3 h d e) := by
  obtain ⟨-, -, -, -, -, e5, e6, e7, -⟩ := idx_facts1 t
  show V c main_v3 (((cfg1.win 1).blk t).view.emb (ix3 (0 : Fin 1) d e)) = V c main_v3 _
  refine congrArg (V c main_v3) (funext fun a => Fin.ext ?_)
  match a with
  | ⟨0, _⟩ => show win1_1.index t (0 : Fin 3) * 1 + 1 * 0 = h.val; omega
  | ⟨1, _⟩ => show win1_1.index t (1 : Fin 3) * 64 + 1 * d.val = d.val; omega
  | ⟨2, _⟩ => show win1_1.index t (2 : Fin 3) * 768 + 1 * e.val = e.val; omega

/-- The bias' block is the whole bias. -/
theorem blk2_at (c : Dev nD) (t : Fin cfg1.N) (e : Fin 768) : R1.iblk1 V c 2 t (ix1 e) = V c main_arg4 (ix1 e) := by
  obtain ⟨-, -, -, -, -, -, -, -, e8, -⟩ := idx_facts1 t
  show V c main_arg4 (((cfg1.win 2).blk t).view.emb (ix1 e)) = V c main_arg4 _
  refine congrArg (V c main_arg4) (funext fun a => Fin.ext ?_)
  match a with
  | ⟨0, _⟩ => show win1_2.index t (0 : Fin 1) * 768 + 1 * e.val = e.val; omega

/-- THE INVARIANT: after point n = b · 12 + h the scratch holds the first h + 1 heads' contributions to batch b. -/
theorem scratch_at (c : Dev nD) : ∀ (n : ℕ) (hn : n < cfg1.N) (b : Fin 8) (h : Fin 12), b.val = n / 12 → h.val = n % 12 →
    ∀ (r : Fin 1024) (e : Fin 768),
      (R1.outsAt1 V c n hn).2 (ix2 r e) = Cert.Attn.accum (V c main_v4) (V c main_v3) b r e (h.val + 1) := by
  intro n
  induction n using Nat.strong_induction_on with
  | _ n ih =>
    intro hn b h hb hh r e
    have hN : cfg1.N = 96 := N_1
    by_cases h0 : n % 12 = 0
    · refine (congrFun (scratch_first V c ⟨n, hn⟩ h0) (ix2 r e)).trans ?_
      exact stepP_at (V c main_v4) (V c main_v3) b h (R1.iblk1 V c 0 ⟨n, hn⟩) (R1.iblk1 V c 1 ⟨n, hn⟩)
        (fun s r d => blk0_at V c ⟨n, hn⟩ b h hb hh s r d) (fun d e => blk1_at V c ⟨n, hn⟩ h hh d e)
        (k1_pay3 (F := Ideal)) (fun r e => (pay3_apply r e).trans
          (show (0 : EReal) = Cert.Attn.accum (V c main_v4) (V c main_v3) b r e h.val by rw [show h.val = 0 by omega]; rfl)) r e
    · refine (congrFun (scratch_later V c ⟨n, hn⟩ h0) (ix2 r e)).trans ?_
      refine stepP_at (V c main_v4) (V c main_v3) b h (R1.iblk1 V c 0 ⟨n, hn⟩) (R1.iblk1 V c 1 ⟨n, hn⟩)
        (fun s r d => blk0_at V c ⟨n, hn⟩ b h hb hh s r d) (fun d e => blk1_at V c ⟨n, hn⟩ h hh d e)
        _ (fun r e => ?_) r e
      refine (ih (n - 1) (by omega) (by omega) b ⟨h.val - 1, by omega⟩ (by show b.val = (n - 1) / 12; omega)
        (by show h.val - 1 = (n - 1) % 12; omega) r e).trans ?_
      exact congrArg (Cert.Attn.accum (V c main_v4) (V c main_v3) b r e) (by show h.val - 1 + 1 = h.val; omega)

/-- After a point of the last head the output block holds the specification's output for the point's batch. -/
theorem out_at_last (c : Dev nD) (t : Fin cfg1.N) (h11 : t.val % 12 = 11) (r : Fin 1024) (e : Fin 768) :
    (R1.outsAt1 V c t.val t.isLt).1 (ix3 (0 : Fin 1) r e)
      = Cert.Attn.outAt (V c main_v4) (V c main_v3) (V c main_arg4)
          ⟨t.val / 12, by have := t.isLt; have : cfg1.N = 96 := N_1; omega⟩ r e := by
  have hN : cfg1.N = 96 := N_1
  have ht := t.isLt
  refine (congrFun (out_last V c t h11) (ix3 (0 : Fin 1) r e)).trans ?_
  refine step_out (V c main_v4) (V c main_v3) (V c main_arg4) ⟨t.val / 12, by omega⟩ _ (R1.iblk1 V c 2 t)
    (fun r e => ?_) (fun e => blk2_at V c t e) r e
  exact stepP_at (V c main_v4) (V c main_v3) ⟨t.val / 12, by omega⟩ (⟨11, by omega⟩ : Fin 12)
    (R1.iblk1 V c 0 t) (R1.iblk1 V c 1 t)
    (fun s r d => blk0_at V c t ⟨t.val / 12, by omega⟩ ⟨11, by omega⟩ rfl h11.symm s r d)
    (fun d e => blk1_at V c t ⟨11, by omega⟩ h11.symm d e)
    _ (fun r e => scratch_at V c (t.val - 1) (by omega) ⟨t.val / 12, by omega⟩ ⟨10, by omega⟩
        (by show t.val / 12 = (t.val - 1) / 12; omega) (by show 10 = (t.val - 1) % 12; omega) r e) r e

end Cert.KernelIdeal.Val1

end
-- ==== Proof.IdealVal1.lean ====
/-
  Region 1's output array after its last point, over the extended reals: the spec's attention and output projection.

  The grid is 8 × 12: point t = (b, h) handles batch b and head h. The output's block is the [1, 1024, 768] slab of the
  [8, 1024, 768] array at batch b; it is written back only at the points whose head coordinate is 11, where it holds the
  spec's output for that batch. Every index of the array lies in the slab of its batch; so the array ends as the spec's
  output.
-/
import proofs.«109183_j33913061769280_2_alg».proof.Proof.IdealVal1Inv
import proofs.«109183_j33913061769280_2_alg».proof.Proof.Spec
import Idealize.ShloMosaic.Lib.Pipeline.Value

noncomputable section

namespace Cert.KernelIdeal.Val1

open Cert.KernelIdeal Cert.KernelIdeal.Gen Idealize.ShloMosaic Idealize.ShloMosaic.TcCoe Idealize.SL.Sem
open Idealize.ShloMosaic.ValueIdx
open Idealize.ShloMosaic.Pipeline (Dat)

-- the core's buffer contents when the region is entered
variable (V : (c : Dev nD) → (b : Ref sig .tc) → Buf (Elt Ideal) ((c : Thread nD τ).loc b))

/-- The index map of the output over the grid: its block index on axis 0 is the point's batch, on the other axes
    zero. -/
theorem win3_index : ∀ t : Fin cfg1.N,
    win1_3.index t (0 : Fin 3) = t.val / 12 ∧ win1_3.index t (1 : Fin 3) = 0 ∧ win1_3.index t (2 : Fin 3) = 0 :=
  (by decide +kernel : ∀ t : Fin grid1.N, _)

/-- Every batch is the batch of a point whose head coordinate is 11. -/
theorem win3_onto : ∀ b : Fin 8, ∃ t : Fin cfg1.N, t.val % 12 = 11 ∧ win1_3.index t = ![b.val, 0, 0] :=
  (by decide +kernel : ∀ b : Fin 8, ∃ t : Fin grid1.N, t.val % 12 = 11 ∧ win1_3.index t = ![b.val, 0, 0])

/-- What a point whose head coordinate is 11 writes back is its block of the spec's output, from the arrays as the
    region finds them. -/
theorem flushed3_eq (c : Dev nD) (t : Fin cfg1.N) (h11 : t.val % 12 = 11) :
    (R1.dat1 V c).flushed 3 t
      = ((cfg1.win 3).blk t).view.read (Elt Ideal) (Cert.Attn.attnOut (V c main_v4) (V c main_v3) (V c main_arg4)) := by
  show (cfg1.win 3).cut (grid1.coords t) ((R1.dat1 V c).after 3 t) = _
  rw [R1.after1_3]
  obtain ⟨e0, e1, e2⟩ := win3_index t
  have hN : t.val < 96 := lt_of_lt_of_eq t.isLt (show cfg1.N = 96 from N_1)
  funext j
  obtain ⟨u, r, e, rfl⟩ : ∃ (u : Fin 1) (r : Fin 1024) (e : Fin 768), j = ix3 u r e := ⟨j 0, j 1, j 2, eq_ix3 j⟩
  obtain rfl : u = 0 := Fin.ext (by omega)
  -- the output's block element (0, r, e) sits in the array at (b, r, e), b the point's batch
  have hemb : ((cfg1.win 3).blk t).view.emb (ix3 (0 : Fin 1) r e)
      = ix3 (⟨t.val / 12, by omega⟩ : Fin 8) r e := by
    funext a; apply Fin.ext
    match a with
    | ⟨0, _⟩ => show win1_3.index t (0 : Fin 3) * 1 + 1 * 0 = t.val / 12; omega
    | ⟨1, _⟩ => show win1_3.index t (1 : Fin 3) * 1024 + 1 * r.val = r.val; omega
    | ⟨2, _⟩ => show win1_3.index t (2 : Fin 3) * 768 + 1 * e.val = e.val; omega
  show (R1.outsAt1 V c t.val t.isLt).1 (ix3 (0 : Fin 1) r e)
      = Cert.Attn.attnOut (V c main_v4) (V c main_v3) (V c main_arg4) (((cfg1.win 3).blk t).view.emb (ix3 (0 : Fin 1) r e))
  rw [hemb, Cert.Attn.attnOut_ix3]
  exact out_at_last V c t h11 r e

/-- An index of the array is in point `t`'s block iff each coordinate is in the block's range on its axis. -/
theorem mem_blk3 (t : Fin cfg1.N) (i : S8x1024x768.Idx) :
    i ∈ ((cfg1.win 3).blk t).view.set ↔ ∀ a : Fin 3, win1_3.index t a * S1x1024x768.size a ≤ (i a).val ∧ (i a).val < win1_3.index t a * S1x1024x768.size a + S1x1024x768.size a := by
  show i ∈ ((View.whole main_v5).slice (win1_3.rect t)).set ↔ _
  rw [View.set_slice_whole, Rect.mem_set_unit]
  exact Iff.rfl

/-- Every index of the array is in the block of a point that writes back: the point of its batch whose head
    coordinate is 11. -/
theorem cover3 (i : S8x1024x768.Idx) : ∃ t : Fin cfg1.N, (cfg1.win 3).flush t = true ∧ i ∈ ((cfg1.win 3).blk t).view.set := by
  have hi0 : (i 0).val < 8 := (i 0).isLt
  have hi1 : (i 1).val < 1024 := (i 1).isLt
  have hi2 : (i 2).val < 768 := (i 2).isLt
  obtain ⟨t, h11, ht⟩ := win3_onto ⟨(i 0).val, hi0⟩
  have q0 : win1_3.index t (0 : Fin 3) = (i 0).val := congrFun ht 0
  have q1 : win1_3.index t (1 : Fin 3) = 0 := congrFun ht 1
  have q2 : win1_3.index t (2 : Fin 3) = 0 := congrFun ht 2
  refine ⟨t, (flush1_3 t).mpr h11, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 768 ≤ (i 2).val ∧ (i 2).val < win1_3.index t (2 : Fin 3) * 768 + 768; omega

/-- The output array after the region: the spec's attention and output projection of the arrays as the region finds
    them. -/
theorem final5 (c : Dev nD) :
    (R1.dat1 V c).arrAt 3 cfg1.N = Cert.Attn.attnOut (V c main_v4) (V c main_v3) (V c main_arg4) :=
  (R1.dat1 V c).arrAt_eq_of_cover 3 (Cert.Attn.attnOut (V c main_v4) (V c main_v3) (V c main_arg4))
    (fun t hf => flushed3_eq V c t ((flush1_3 t).mp hf)) cover3

end Cert.KernelIdeal.Val1

end
-- ==== Proof.IdealValue.lean ====
/-
  The idealized kernel program's result, as one function of the five arguments.
  The attention region's write-backs leave attention-and-projection of the array the projection region left, of the
  by-head weights and of the bias (the second region's value); the projection region left the fused projection of
  the activations, the narrow copy of its weights and its bias (the first region's value); the host stretch made the
  narrow copy the weights themselves and the by-head weights ph[h,d,e] = pw[e, h·64 + d]. Composed: `Cert.Attn.whole`.
-/
import proofs.«109183_j33913061769280_2_alg».proof.Proof.IdealRun
import proofs.«109183_j33913061769280_2_alg».proof.Proof.IdealHost
import proofs.«109183_j33913061769280_2_alg».proof.Proof.IdealVal0
import proofs.«109183_j33913061769280_2_alg».proof.Proof.IdealVal1
import proofs.«109183_j33913061769280_2_alg».proof.Proof.Spec

noncomputable section

namespace Cert.KernelIdeal.WholeValue

open Idealize.ShloMosaic Idealize.ShloMosaic.TcCoe Idealize.SL.Sem
open Cert.KernelIdeal Cert.KernelIdeal.Gen Cert.KernelIdeal.Whole

variable (m : (ℓ : Loc nD τ sig) → Buf (Elt Ideal) ℓ) (ρ : Dev nD → PrngReg)

/-- What the projection region finds: the activations, the weights, the bias. -/
theorem entry0_x (c : Dev nD) : U1 m c main_arg0 = m ((c : Thread nD τ).loc main_arg0) := (Gen.V1_of m c main_arg0 (by decide)).trans rfl
theorem entry0_b (c : Dev nD) : U1 m c main_arg2 = m ((c : Thread nD τ).loc main_arg2) := (Gen.V1_of m c main_arg2 (by decide)).trans rfl

/-- What the attention region finds in the fused-projection array: the fused projection of the arguments. -/
theorem entry1_qkv (c : Dev nD) :
    (U2 m c main_v4 : S3x8x12x1024x64.Idx → EReal)
      = Cert.Attn.qkv (m ((c : Thread nD τ).loc main_arg0)) (m ((c : Thread nD τ).loc main_arg1)) (m ((c : Thread nD τ).loc main_arg2)) := by
  refine (W2_arr m c 3).trans ?_
  rw [Val0.final4, entry0_x, entry0_b]
  exact congrArg (fun w => Cert.Attn.qkv _ w _) (HostValue.v0_eq m c)

/-- The by-head weights it finds. -/
theorem entry1_ph (c : Dev nD) : (U2 m c main_v3 : S12x64x768.Idx → EReal) = Cert.Attn.pwh (m ((c : Thread nD τ).loc main_arg3)) :=
  (W2_of_ne m c main_v3 (by decide)).trans (HostValue.v3_eq m c)

/-- The bias it finds. -/
theorem entry1_pb (c : Dev nD) : U2 m c main_arg4 = m ((c : Thread nD τ).loc main_arg4) :=
  (W2_of_ne m c main_arg4 (by decide)).trans ((Gen.V1_of m c main_arg4 (by decide)).trans rfl)

/-- The result array is the whole function of the arguments. -/
theorem result_eq (c : Dev nD) :
    ((R1.dat1 (U2 m) c).arrAt 3 cfg1.N : S8x1024x768.Idx → EReal)
      = Cert.Attn.whole (m ((c : Thread nD τ).loc main_arg0)) (m ((c : Thread nD τ).loc main_arg1)) (m ((c : Thread nD τ).loc main_arg2))
          (m ((c : Thread nD τ).loc main_arg3)) (m ((c : Thread nD τ).loc main_arg4)) := by
  rw [Val1.final5, entry1_qkv, entry1_ph, entry1_pb]
  rfl

/-- The run with the result named by the specification. -/
theorem run_spec : θ_run defs (onTc (τ := τ) (main (F := Ideal))) ⟨m, fun _ => 0, ρ⟩ (fun r => ∀ c : Dev nD,
      r.2.mem ((c.tc : Thread nD τ).loc main_v5)
        = Cert.Attn.whole (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m c), (h c).2⟩) (Whole.run m ρ)

end Cert.KernelIdeal.WholeValue

end
-- ==== Proof.RefQkv.lean ====
/-
  The reference's fused projection, read at an index.

  The reference multiplies x[b,t,·] by every row c of w, adds the bias bq[c], splits the column c = s·768 + h·64 + d into
  (s, h, d), moves the role s to the front and the head h before the row t, and cuts out the three roles. So the entry
  (b, h, t, d) of role s is (∑ₖ x[b,t,k] · w[c(s,h,d),k]) + bq[c(s,h,d)]: the specification's qkvAt.
-/
import proofs.«109183_j33913061769280_2_alg».proof.Proof.Gen.ReferenceIdeal.Read
import proofs.«109183_j33913061769280_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

variable (x0 : (⟨S8x1024x768, .f32⟩ : BufTy).Contents (Elt Ideal)) (x1 : (⟨S2304x768, .f32⟩ : BufTy).Contents (Elt Ideal))
  (x2 : (⟨S2304, .f32⟩ : BufTy).Contents (Elt Ideal))

/-- The projection with its bias at (b, t, c): the contraction over the 768 features plus the bias of column c. -/
theorem v3_at (b : Fin 8) (t : Fin 1024) (c : Fin 2304) :
    val_main_v3 (F := Ideal) x0 x1 x2 (ix3 b t c) = (∑ k : Fin 768, x0 (ix3 b t k) * x1 (ix2 c k)) + x2 (ix1 c) := by
  have el : ∀ k : Fin 768, lidx_main_v0 (ix3 b t c) k = ix3 b t k := fun k =>
    funext fun a => Fin.ext (by match a with | ⟨0, _⟩ => rfl | ⟨1, _⟩ => rfl | ⟨2, _⟩ => rfl)
  have er : ∀ k : Fin 768, ridx_main_v0 (ix3 b t c) k = ix2 c k := fun k =>
    funext fun a => Fin.ext (by match a with | ⟨0, _⟩ => rfl | ⟨1, _⟩ => rfl)
  have eb : idx_main_v1 (idx_main_v2 (ix3 b t c)) = ix1 c :=
    funext fun a => Fin.ext (by match a with | ⟨0, _⟩ => rfl)
  rw [val_main_v3_apply, val_main_v0_apply, val_main_v2_apply, val_main_v1_apply, eb]
  simp only [el, er, Ideal.addf_def]

/-- The transposed array [3, 8, 12, 1024, 64] at (s, b, h, t, d): the row-major position of (b, t, s, h, d) in
    [8, 1024, 3, 12, 64] is that of (b, t, s·768 + h·64 + d) in [8, 1024, 2304]. -/
theorem v5_at (s : Fin 3) (b : Fin 8) (h : Fin 12) (t : Fin 1024) (d : Fin 64) :
    val_main_v5 (F := Ideal) x0 x1 x2 (ix5 s b h t d) = Cert.Attn.qkvAt x0 x1 x2 s b h t d := by
  have e : idx_main_v4 (idx_main_v5 (ix5 s b h t d)) = ix3 b t (Cert.Attn.col s h d) :=
    funext fun a => Fin.ext (by
      have hs := s.isLt; have hb := b.isLt; have hh := h.isLt; have ht := t.isLt; have hd := d.isLt
      match a with
      | ⟨0, _⟩ => show ((((b.val * 1024 + t.val) * 3 + s.val) * 12 + h.val) * 64 + d.val) / 2359296 = b.val; omega
      | ⟨1, _⟩ => show ((((b.val * 1024 + t.val) * 3 + s.val) * 12 + h.val) * 64 + d.val) / 2304 % 1024 = t.val; omega
      | ⟨2, _⟩ => show ((((b.val * 1024 + t.val) * 3 + s.val) * 12 + h.val) * 64 + d.val) % 2304 = s.val * 768 + h.val * 64 + d.val; omega)
  rw [val_main_v5_apply, val_main_v4_apply, e, v3_at]
  rfl

/-- Role 0 of the fused projection, cut out of the transposed array and with its unit axis dropped. -/
theorem v7_at (b : Fin 8) (h : Fin 12) (t : Fin 1024) (d : Fin 64) :
    val_main_v7 (F := Ideal) x0 x1 x2 (ix4 b h t d) = Cert.Attn.qkvAt x0 x1 x2 (0 : Fin 3) b h t d := by
  have e : idx_main_v6 (idx_main_v7 (ix4 b h t d)) = ix5 (0 : Fin 3) b h t d :=
    funext fun a => Fin.ext (by
      have hb := b.isLt; have hh := h.isLt; have ht := t.isLt; have hd := d.isLt
      match a with
      | ⟨0, _⟩ => rfl
      | ⟨1, _⟩ => show (((b.val * 12 + h.val) * 1024 + t.val) * 64 + d.val) / 786432 % 8 = b.val; omega
      | ⟨2, _⟩ => show (((b.val * 12 + h.val) * 1024 + t.val) * 64 + d.val) / 65536 % 12 = h.val; omega
      | ⟨3, _⟩ => show (((b.val * 12 + h.val) * 1024 + t.val) * 64 + d.val) / 64 % 1024 = t.val; omega
      | ⟨4, _⟩ => show (((b.val * 12 + h.val) * 1024 + t.val) * 64 + d.val) % 64 = d.val; omega)
  rw [val_main_v7_apply, val_main_v6_apply, e, v5_at]

/-- Role 1 of the fused projection, cut out of the transposed array and with its unit axis dropped. -/
theorem v9_at (b : Fin 8) (h : Fin 12) (t : Fin 1024) (d : Fin 64) :
    val_main_v9 (F := Ideal) x0 x1 x2 (ix4 b h t d) = Cert.Attn.qkvAt x0 x1 x2 (1 : Fin 3) b h t d := by
  have e : idx_main_v8 (idx_main_v9 (ix4 b h t d)) = ix5 (1 : Fin 3) b h t d :=
    funext fun a => Fin.ext (by
      have hb := b.isLt; have hh := h.isLt; have ht := t.isLt; have hd := d.isLt
      match a with
      | ⟨0, _⟩ => rfl
      | ⟨1, _⟩ => show (((b.val * 12 + h.val) * 1024 + t.val) * 64 + d.val) / 786432 % 8 = b.val; omega
      | ⟨2, _⟩ => show (((b.val * 12 + h.val) * 1024 + t.val) * 64 + d.val) / 65536 % 12 = h.val; omega
      | ⟨3, _⟩ => show (((b.val * 12 + h.val) * 1024 + t.val) * 64 + d.val) / 64 % 1024 = t.val; omega
      | ⟨4, _⟩ => show (((b.val * 12 + h.val) * 1024 + t.val) * 64 + d.val) % 64 = d.val; omega)
  rw [val_main_v9_apply, val_main_v8_apply, e, v5_at]

/-- Role 2 of the fused projection, cut out of the transposed array and with its unit axis dropped. -/
theorem v11_at (b : Fin 8) (h : Fin 12) (t : Fin 1024) (d : Fin 64) :
    val_main_v11 (F := Ideal) x0 x1 x2 (ix4 b h t d) = Cert.Attn.qkvAt x0 x1 x2 (2 : Fin 3) b h t d := by
  have e : idx_main_v10 (idx_main_v11 (ix4 b h t d)) = ix5 (2 : Fin 3) b h t d :=
    funext fun a => Fin.ext (by
      have hb := b.isLt; have hh := h.isLt; have ht := t.isLt; have hd := d.isLt
      match a with
      | ⟨0, _⟩ => rfl
      | ⟨1, _⟩ => show (((b.val * 12 + h.val) * 1024 + t.val) * 64 + d.val) / 786432 % 8 = b.val; omega
      | ⟨2, _⟩ => show (((b.val * 12 + h.val) * 1024 + t.val) * 64 + d.val) / 65536 % 12 = h.val; omega
      | ⟨3, _⟩ => show (((b.val * 12 + h.val) * 1024 + t.val) * 64 + d.val) / 64 % 1024 = t.val; omega
      | ⟨4, _⟩ => show (((b.val * 12 + h.val) * 1024 + t.val) * 64 + d.val) % 64 = d.val; omega)
  rw [val_main_v11_apply, val_main_v10_apply, e, v5_at]

end Cert.ReferenceIdeal.RefValue

end
-- ==== Proof.RefSoftmax.lean ====
/-
  The reference's softmax, read at an index.

  With A the fused projection: the scores are (∑_d A[0,b,h,t,d] · A[1,b,h,u,d]) · 1/8; the reference folds their maximum
  over u from -∞ and then takes the maximum of -∞ and that fold, which is the fold again since a fold of maxima is never
  below its starting value; it subtracts the row's maximum, exponentiates, sums the row from 0 and divides by the sum.
  The keep-dimension broadcasts [8,12,1024] → [8,12,1024,1] → [8,12,1024,1024] read the row's value at every u.
-/
import proofs.«109183_j33913061769280_2_alg».proof.Proof.Gen.ReferenceIdeal.Read
import proofs.«109183_j33913061769280_2_alg».proof.Proof.Spec
import proofs.«109183_j33913061769280_2_alg».proof.Proof.RefQkv

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

variable (x0 : (⟨S8x1024x768, .f32⟩ : BufTy).Contents (Elt Ideal)) (x1 : (⟨S2304x768, .f32⟩ : BufTy).Contents (Elt Ideal))
  (x2 : (⟨S2304, .f32⟩ : BufTy).Contents (Elt Ideal))

local notation "A" => Cert.Attn.qkv x0 x1 x2

/-- The scaled score at (b, h, t, u). -/
theorem v14_at (b : Fin 8) (h : Fin 12) (t u : Fin 1024) :
    val_main_v14 (F := Ideal) x0 x1 x2 (ix4 b h t u) = Cert.Attn.score A b h t u := by
  have el : ∀ k : Fin 64, lidx_main_v12 (ix4 b h t u) k = ix4 b h t k := fun k =>
    funext fun a => Fin.ext (by match a with | ⟨0, _⟩ => rfl | ⟨1, _⟩ => rfl | ⟨2, _⟩ => rfl | ⟨3, _⟩ => rfl)
  have er : ∀ k : Fin 64, ridx_main_v12 (ix4 b h t u) k = ix4 b h u k := fun k =>
    funext fun a => Fin.ext (by match a with | ⟨0, _⟩ => rfl | ⟨1, _⟩ => rfl | ⟨2, _⟩ => rfl | ⟨3, _⟩ => rfl)
  rw [val_main_v14_apply, val_main_v12_apply, val_main_v13_apply, val_main_cst_apply]
  simp only [el, er, v7_at, v9_at, Ideal.mulf_def, Ideal.ofBits_def]
  rfl

/-- The reduced index (b, h, t) with the coordinate k put back on the last axis is (b, h, t, k). -/
theorem lift_ix4 (hr : S8x12x1024x1024.Reduces [3] S8x12x1024) (b : Fin 8) (h : Fin 12) (t : Fin 1024)
    (k : Fin (S8x12x1024x1024.size 3)) : hr.lift (ix3 b h t) k = ix4 b h t (⟨k.val, k.isLt⟩ : Fin 1024) := by
  funext c; apply Fin.ext
  fin_cases c <;> rfl

/-- The row's maximum: the reduce over the last axis with a maximum body, from -∞. -/
theorem v15_at (b : Fin 8) (h : Fin 12) (t : Fin 1024) :
    val_main_v15 (F := Ideal) x0 x1 x2 (ix3 b h t) = Cert.Attn.rowMax A b h t := by
  have hr : S8x12x1024x1024.Reduces [3] S8x12x1024 := by decide
  unfold val_main_v15
  rw [Host.reduce_eq_fold_single FloatOps.maximumf _ _ _ hr]
  have hf : (val_main_v14 (F := Ideal) x0 x1 x2 ∘ hr.lift (ix3 b h t))
      = fun u : Fin 1024 => Cert.Attn.score A b h t u :=
    funext fun k => (congrArg (val_main_v14 (F := Ideal) x0 x1 x2) (lift_ix4 hr b h t k)).trans
      (v14_at x0 x1 x2 b h t ⟨k.val, k.isLt⟩)
  exact congrArg (fun f => Finset.fold max Cert.Attn.ninf f (Finset.univ : Finset (Fin 1024))) hf

/-- The maximum of -∞ and the row's maximum is the row's maximum: a fold of maxima is at least its starting value. -/
theorem v17_at (b : Fin 8) (h : Fin 12) (t : Fin 1024) :
    val_main_v17 (F := Ideal) x0 x1 x2 (ix3 b h t) = Cert.Attn.rowMax A b h t := by
  rw [val_main_v17_apply, val_main_v16_apply, val_main_cst_1_apply, v15_at]
  simp only [Ideal.maximumf_def, Ideal.ofBits_def]
  exact max_eq_right ((Finset.le_fold_max _).2 (Or.inl le_rfl))

/-- The row's maximum, broadcast along the row. -/
theorem v19_at (b : Fin 8) (h : Fin 12) (t u : Fin 1024) :
    val_main_v19 (F := Ideal) x0 x1 x2 (ix4 b h t u) = Cert.Attn.rowMax A b h t := by
  have e : idx_main_v18 (idx_main_v19 (ix4 b h t u)) = ix3 b h t :=
    funext fun a => Fin.ext (by match a with | ⟨0, _⟩ => rfl | ⟨1, _⟩ => rfl | ⟨2, _⟩ => rfl)
  rw [val_main_v19_apply, val_main_v18_apply, e, v17_at]

/-- The numerator exp (score - row maximum). -/
theorem v21_at (b : Fin 8) (h : Fin 12) (t u : Fin 1024) :
    val_main_v21 (F := Ideal) x0 x1 x2 (ix4 b h t u) = Cert.Attn.num A b h t u := by
  rw [val_main_v21_apply, val_main_v20_apply, v14_at, v19_at]
  simp only [Ideal.hostUnary_exp_def, Ideal.subf_def]
  rfl

/-- The row's sum of numerators, from 0. -/
theorem v22_at (b : Fin 8) (h : Fin 12) (t : Fin 1024) :
    val_main_v22 (F := Ideal) x0 x1 x2 (ix3 b h t) = Cert.Attn.den A b h t := by
  have e : ∀ k : Fin 1024, idx_main_v22 (ix3 b h t) k = ix4 b h t k := fun k =>
    funext fun a => Fin.ext (by match a with | ⟨0, _⟩ => rfl | ⟨1, _⟩ => rfl | ⟨2, _⟩ => rfl | ⟨3, _⟩ => rfl)
  rw [val_main_v22_apply, val_main_cst_2_apply]
  simp only [e, v21_at, Ideal.ofBits_def, Ideal.ofBits_zero_f32, zero_add]
  rfl

/-- The row's sum, broadcast along the row. -/
theorem v24_at (b : Fin 8) (h : Fin 12) (t u : Fin 1024) :
    val_main_v24 (F := Ideal) x0 x1 x2 (ix4 b h t u) = Cert.Attn.den A b h t := by
  have e : idx_main_v23 (idx_main_v24 (ix4 b h t u)) = ix3 b h t :=
    funext fun a => Fin.ext (by match a with | ⟨0, _⟩ => rfl | ⟨1, _⟩ => rfl | ⟨2, _⟩ => rfl)
  rw [val_main_v24_apply, val_main_v23_apply, e, v22_at]

/-- The softmax weight at (b, h, t, u). -/
theorem v25_at (b : Fin 8) (h : Fin 12) (t u : Fin 1024) :
    val_main_v25 (F := Ideal) x0 x1 x2 (ix4 b h t u)
      = Ideal.div (Cert.Attn.num A b h t u) (Cert.Attn.den A b h t) := by
  rw [val_main_v25_apply, v21_at, v24_at]
  rfl

end Cert.ReferenceIdeal.RefValue

end
-- ==== Proof.RefOut.lean ====
/-
  The reference's weighted values and output projection, read at an index.

  The head's output at (b, h, t, d) is ∑ᵤ weight[b,h,t,u] · A[2,b,h,u,d]. The reference moves the head h behind the row t
  and merges (h, d) into the feature j = h·64 + d, contracts j against pw[e, j] in ONE sum over the 768 features and adds
  the bias pb[e]. The specification adds the twelve heads' sums ∑_d one after the other from zero. The two agree by two
  laws of an additive commutative monoid: a sum over the 768 features is the sum over the heads of the sums over the
  lanes, and the heads' contributions added one after the other from zero are their sum.
-/
import proofs.«109183_j33913061769280_2_alg».proof.Proof.Gen.ReferenceIdeal.Read
import proofs.«109183_j33913061769280_2_alg».proof.Proof.Spec
import proofs.«109183_j33913061769280_2_alg».proof.Proof.RefSoftmax

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

/-- A sum over the 768 features is the sum over the 12 heads of the sums over the 64 lanes. -/
theorem sum_feat {M : Type*} [AddCommMonoid M] (f : Fin 768 → M) :
    ∑ j : Fin 768, f j = ∑ h : Fin 12, ∑ d : Fin 64, f (Cert.Attn.feat h d) := by
  refine Eq.trans ?_ (Fintype.sum_prod_type' (fun (h : Fin 12) (d : Fin 64) => f (Cert.Attn.feat h d)))
  refine (Fintype.sum_equiv (finProdFinEquiv (m := 12) (n := 64)) (fun p => f (Cert.Attn.feat p.1 p.2)) f (fun p => ?_)).symm
  exact congrArg f (Fin.ext (by show p.1.val * 64 + p.2.val = p.2.val + 64 * p.1.val; omega))

/-- The heads' contributions added one after the other from zero are their sum. -/
theorem accum_eq_sum (Q : Cert.Attn.QKV) (ph : Cert.Attn.PwH) (b : Fin 8) (t : Fin 1024) (e : Fin 768) :
    Cert.Attn.accum Q ph b t e 12 = ∑ h : Fin 12, Cert.Attn.part Q ph b h t e := by
  have key : ∀ n : ℕ, Cert.Attn.accum Q ph b t e n
      = ∑ i ∈ Finset.range n, (if hn : i < 12 then Cert.Attn.part Q ph b ⟨i, hn⟩ t e else 0) := by
    intro n
    induction n with
    | zero => rw [Finset.sum_range_zero]; rfl
    | succ n ih => rw [Finset.sum_range_succ, ← ih]; rfl
  rw [key, ← Fin.sum_univ_eq_sum_range (fun i => if hn : i < 12 then Cert.Attn.part Q ph b ⟨i, hn⟩ t e else 0) 12]
  exact Finset.sum_congr rfl fun h _ => dif_pos h.isLt

variable (x0 : (⟨S8x1024x768, .f32⟩ : BufTy).Contents (Elt Ideal)) (x1 : (⟨S2304x768, .f32⟩ : BufTy).Contents (Elt Ideal))
  (x2 : (⟨S2304, .f32⟩ : BufTy).Contents (Elt Ideal))

local notation "A" => Cert.Attn.qkv x0 x1 x2

/-- The head's output at (b, h, t, d): the weights of row t against the values' lane d. -/
theorem v26_at (b : Fin 8) (h : Fin 12) (t : Fin 1024) (d : Fin 64) :
    val_main_v26 (F := Ideal) x0 x1 x2 (ix4 b h t d) = Cert.Attn.head A b h t d := by
  have el : ∀ k : Fin 1024, lidx_main_v26 (ix4 b h t d) k = ix4 b h t k := fun k =>
    funext fun a => Fin.ext (by match a with | ⟨0, _⟩ => rfl | ⟨1, _⟩ => rfl | ⟨2, _⟩ => rfl | ⟨3, _⟩ => rfl)
  have er : ∀ k : Fin 1024, ridx_main_v26 (ix4 b h t d) k = ix4 b h k d := fun k =>
    funext fun a => Fin.ext (by match a with | ⟨0, _⟩ => rfl | ⟨1, _⟩ => rfl | ⟨2, _⟩ => rfl | ⟨3, _⟩ => rfl)
  rw [val_main_v26_apply]
  simp only [el, er, v25_at, v11_at]
  rfl

/-- The merged array [8, 1024, 768] at (b, t, h·64 + d): the row-major position of (b, t, h·64 + d) is that of
    (b, t, h, d) in [8, 1024, 12, 64], which the transpose reads at (b, h, t, d). -/
theorem v28_at (b : Fin 8) (t : Fin 1024) (h : Fin 12) (d : Fin 64) :
    val_main_v28 (F := Ideal) x0 x1 x2 (ix3 b t (Cert.Attn.feat h d)) = Cert.Attn.head A b h t d := by
  have e : idx_main_v27 (idx_main_v28 (ix3 b t (Cert.Attn.feat h d))) = ix4 b h t d :=
    funext fun a => Fin.ext (by
      have hb := b.isLt; have hh := h.isLt; have ht := t.isLt; have hd := d.isLt
      match a with
      | ⟨0, _⟩ => show ((b.val * 1024 + t.val) * 768 + (h.val * 64 + d.val)) / 786432 = b.val; omega
      | ⟨1, _⟩ => show ((b.val * 1024 + t.val) * 768 + (h.val * 64 + d.val)) / 64 % 12 = h.val; omega
      | ⟨2, _⟩ => show ((b.val * 1024 + t.val) * 768 + (h.val * 64 + d.val)) / 768 % 1024 = t.val; omega
      | ⟨3, _⟩ => show ((b.val * 1024 + t.val) * 768 + (h.val * 64 + d.val)) % 64 = d.val; omega)
  rw [val_main_v28_apply, val_main_v27_apply, e, v26_at]

variable (x3 : (⟨S768x768, .f32⟩ : BufTy).Contents (Elt Ideal)) (x4 : (⟨S768, .f32⟩ : BufTy).Contents (Elt Ideal))

/-- The result at (b, t, e): the output projection over all 768 features plus the bias is the specification's entry. -/
theorem v32_at (b : Fin 8) (t : Fin 1024) (e : Fin 768) :
    val_main_v32 (F := Ideal) x0 x1 x2 x3 x4 (ix3 b t e) = Cert.Attn.outAt A (Cert.Attn.pwh x3) x4 b t e := by
  have el : ∀ k : Fin 768, lidx_main_v29 (ix3 b t e) k = ix3 b t k := fun k =>
    funext fun a => Fin.ext (by match a with | ⟨0, _⟩ => rfl | ⟨1, _⟩ => rfl | ⟨2, _⟩ => rfl)
  have er : ∀ k : Fin 768, ridx_main_v29 (ix3 b t e) k = ix2 e k := fun k =>
    funext fun a => Fin.ext (by match a with | ⟨0, _⟩ => rfl | ⟨1, _⟩ => rfl)
  have eb : idx_main_v30 (idx_main_v31 (ix3 b t e)) = ix1 e :=
    funext fun a => Fin.ext (by match a with | ⟨0, _⟩ => rfl)
  rw [val_main_v32_apply, val_main_v29_apply, val_main_v31_apply, val_main_v30_apply, eb]
  simp only [el, er, Ideal.addf_def]
  rw [sum_feat]
  simp only [v28_at]
  unfold Cert.Attn.outAt
  rw [accum_eq_sum]
  rfl

end Cert.ReferenceIdeal.RefValue

end
-- ==== Proof.RefIsSpec.lean ====
/-
  The reference's result is the specification's function of the five argument arrays.

  Index by index: the fused projection (with its bias, split into role, head and lane), the softmax over each row of
  scaled scores, the weighted values, and the output projection with its bias.
-/
import proofs.«109183_j33913061769280_2_alg».proof.Proof.Gen.ReferenceIdeal.Read
import proofs.«109183_j33913061769280_2_alg».proof.Proof.Spec
import proofs.«109183_j33913061769280_2_alg».proof.Proof.RefOut

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

theorem ref_is_spec (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v32 (F := Ideal) m c
      = Cert.Attn.whole (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [val_main_v32_eq]
  funext i
  obtain ⟨b, t, e, rfl⟩ : ∃ (b : Fin 8) (t : Fin 1024) (e : Fin 768), i = ix3 b t e := ⟨i 0, i 1, i 2, eq_ix3 i⟩
  exact v32_at _ _ _ _ _ b t e

end Cert.ReferenceIdeal.RefValue

end
-- ==== Proof.lean ====
/-
  The five claims about one attention layer: the fused query/key/value projection written head-major by a first
  kernel, then per (batch, head) the scaled scores, their softmax along each row, the weighted sum of values and that
  head's slice of the output projection, accumulated over the twelve heads and finished with the bias by a second
  kernel — against the same layer written with einsums and a library softmax.

  At the extended reals both are ONE function of the five arguments (`Cert.Attn.whole`): the casts to the narrow
  float format are identities, each matrix product is its plain sum, the row maximum is the fold of max from −∞ on
  both sides (the reference takes a further maximum with −∞, which changes nothing), the exponentials, row sums and
  quotients are the same expressions, and the reference's single contraction over the 768 features is the twelve
  heads' 64-term sums added one after the other from zero. No entry's finiteness is used.

  The two kernel programs run as a host stretch and two regions; the second region's invariant carries the
  accumulator across the heads of a batch row. The reference's run is its operations' composed term.
  The idealization rewrote nothing, so that claim is trivial.
-/
import proofs.«109183_j33913061769280_2_alg».proof.Defs
import proofs.«109183_j33913061769280_2_alg».proof.Proof.Gen.Kernel
import proofs.«109183_j33913061769280_2_alg».proof.Proof.Gen.KernelIdeal
import proofs.«109183_j33913061769280_2_alg».proof.Proof.Gen.ReferenceIdeal
import proofs.«109183_j33913061769280_2_alg».proof.Proof.Gen.Pre_finite_inputs
import proofs.«109183_j33913061769280_2_alg».proof.Proof.Gen.ReferenceIdeal.Run
import proofs.«109183_j33913061769280_2_alg».proof.Proof.BitsRun
import proofs.«109183_j33913061769280_2_alg».proof.Proof.IdealValue
import proofs.«109183_j33913061769280_2_alg».proof.Proof.RefIsSpec

noncomputable section

namespace Cert.Proof

open Idealize.ShloMosaic Idealize.SL.Sem

theorem frame_k : @Cert.frame_Kernel Cert.Kernel.Gen.facts Cert.Pre_finite_inputs.Gen.facts :=
  fun m ρ _ => Cert.Kernel.Whole.frame m ρ

theorem frame_ki : @Cert.frame_KernelIdeal Cert.KernelIdeal.Gen.facts Cert.Pre_finite_inputs.Gen.facts :=
  fun m ρ _ => Cert.KernelIdeal.Whole.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealized programs end with the whole function of the arguments, which agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.WholeValue.run_spec m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.ref_is_spec m' c, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
